-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 69
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .bf16⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .bf16⟩
  | .hbm, ⟨40, _⟩ => ⟨S850000x128, .f32⟩
  | .hbm, ⟨41, _⟩ => ⟨S850000x1, .f32⟩
  | .hbm, ⟨42, _⟩ => ⟨S850000x128, .f32⟩
  | .hbm, ⟨43, _⟩ => ⟨S850000x128, .f32⟩
  | .hbm, ⟨44, _⟩ => ⟨S_, .f32⟩
  | .hbm, ⟨45, _⟩ => ⟨S50000x128, .f32⟩
  | .hbm, ⟨46, _⟩ => ⟨S850000x1, .i32⟩
  | .hbm, ⟨47, _⟩ => ⟨S50000x128, .f32⟩
  | .hbm, ⟨48, _⟩ => ⟨S1x128, .f32⟩
  | .hbm, ⟨49, _⟩ => ⟨S50000x128, .bf16⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .bf16⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S50000, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel program's run with its result named: every weakly fair execution of @main terminates, nothing
  faulting, the seven argument arrays end as launched, and the result array ends at the contents the last segment
  boundary gives it — the third region's output array as that region's pipeline leaves it, read through the fold of
  host stretches and regions from the launch memory.

  @main is eight segments (five stretches of host operations, three regions); the thread state carried through them is
  "every unscoped buffer at the boundary's contents", so the final state holds every unscoped buffer, the result among
  them, at the last boundary's contents.
-/
import proofs.«124985_j584115552914_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.KRun

end
-- ==== Proof.GcnLaw.lean ====
/-
  A two-layer graph convolution written two ways, and the law that joins them.

  Nodes `Fin N`, edges `Fin E`, channels `Fin C`. Edge `e` reads node `src e`, carries the weight `w e`, and adds
  into node `v` exactly when `hit e v` (an edge whose target is no node hits nothing). `dinv v` is the inverse square
  root of node `v`'s weighted in-degree, or zero: all that is used of it is `0 ≤ dinv v < ⊤`.

  The node-space form scales every row of the dense product by `dinv` BEFORE the edges read it and scales the
  aggregated row by `dinv` again AFTER: `(∑ₑ (h (src e) · dinv (src e)) · w e) · dinv v`. The edge-space form gives every
  edge the factor `dinv (src e) · w e · dinv (dstc e)`, where `dstc e` is the node the edge's target names when read
  clamped: on an edge that hits `v` it is `v`. The two agree on the extended reals because multiplication by a
  nonnegative finite factor distributes over every sum there, and products reassociate freely.
-/
import Idealize.ShloMosaic.PureOps.Ideal

noncomputable section

namespace Cert.Proof.Gcn

open scoped BigOperators

section Law

variable {N E C : Nat} (src dstc : Fin E → Fin N) (hit : Fin E → Fin N → Prop) [∀ e v, Decidable (hit e v)]
  (w : Fin E → EReal) (dinv : Fin N → EReal)

/-- The dense layer: row `u` of `h` against column `j` of `W`. -/
def dense (h : Fin N → Fin C → EReal) (W : Fin C → Fin C → EReal) : Fin N → Fin C → EReal :=
  fun u j => ∑ k : Fin C, h u k * W k j

/-- Every row scaled by its node's `dinv`. -/
def scaleRows (h : Fin N → Fin C → EReal) : Fin N → Fin C → EReal := fun u j => h u j * dinv u

/-- Node-space aggregation: each edge brings its source row times its weight to the node it hits. -/
def aggK (hs : Fin N → Fin C → EReal) : Fin N → Fin C → EReal :=
  fun v j => 0 + ∑ e : Fin E, if hit e v then hs (src e) j * w e else 0

/-- Node-space epilogue: scale by `dinv`, add the bias, clip at zero. -/
def epiK (a : Fin N → Fin C → EReal) (b : Fin C → EReal) : Fin N → Fin C → EReal :=
  fun v j => max (a v j * dinv v + b j) 0

/-- The symmetric normalisation of an edge. -/
def edgeNorm : Fin E → EReal := fun e => dinv (src e) * w e * dinv (dstc e)

/-- Edge-space aggregation: each edge brings its source row times its normalisation. -/
def aggR (hh : Fin N → Fin C → EReal) : Fin N → Fin C → EReal :=
  fun v j => 0 + ∑ e : Fin E, if hit e v then hh (src e) j * edgeNorm src dstc w dinv e else 0

/-- Edge-space epilogue: add the bias, clip at zero. -/
def epiR (a : Fin N → Fin C → EReal) (b : Fin C → EReal) : Fin N → Fin C → EReal :=
  fun v j => max (a v j + b j) 0

/-- Two layers, node-space form. -/
def kernelOut (x : Fin N → Fin C → EReal) (W1 : Fin C → Fin C → EReal) (b1 : Fin C → EReal)
    (W2 : Fin C → Fin C → EReal) (b2 : Fin C → EReal) : Fin N → Fin C → EReal :=
  epiK dinv (aggK src hit w (scaleRows dinv (dense
    (epiK dinv (aggK src hit w (scaleRows dinv (dense x W1))) b1) W2))) b2

/-- Two layers, edge-space form. -/
def refOut (x : Fin N → Fin C → EReal) (W1 : Fin C → Fin C → EReal) (b1 : Fin C → EReal)
    (W2 : Fin C → Fin C → EReal) (b2 : Fin C → EReal) : Fin N → Fin C → EReal :=
  epiR (aggR src dstc hit w dinv (dense (epiR (aggR src dstc hit w dinv (dense x W1)) b1) W2)) b2

/-- On the extended reals a nonnegative finite factor distributes over a finite sum, whatever the summands. -/
theorem sum_mul_of_nonneg_of_ne_top {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- ONE LAYER: scaling the rows before the edges read them and the aggregate after, or giving each edge its
    normalisation, is the same: the outer factor goes into the sum, on a hit edge the clamped target is the node, and
    the four factors reassociate. -/
theorem layer_eq (hd : ∀ e v, hit e v → dstc e = v) (hpos : ∀ v, 0 ≤ dinv v ∧ dinv v ≠ ⊤)
    (hh : Fin N → Fin C → EReal) (b : Fin C → EReal) :
    epiK dinv (aggK src hit w (scaleRows dinv hh)) b = epiR (aggR src dstc hit w dinv hh) b := by
  funext v j
  have key : aggK src hit w (scaleRows dinv hh) v j * dinv v = aggR src dstc hit w dinv hh v j := by
    unfold aggK aggR scaleRows edgeNorm
    rw [zero_add, zero_add, sum_mul_of_nonneg_of_ne_top _ _ (hpos v).1 (hpos v).2]
    refine Finset.sum_congr rfl fun e _ => ?_
    by_cases h : hit e v
    · rw [if_pos h, if_pos h, hd e v h]
      simp only [mul_assoc]
    · rw [if_neg h, if_neg h, zero_mul]
  show max (aggK src hit w (scaleRows dinv hh) v j * dinv v + b j) 0 = max (aggR src dstc hit w dinv hh v j + b j) 0
  rw [key]

/-- THE LAW: the two forms are one function, when a hit edge's clamped target is the node it hits and `dinv` is
    nonnegative and finite. -/
theorem kernelOut_eq_refOut (hd : ∀ e v, hit e v → dstc e = v) (hpos : ∀ v, 0 ≤ dinv v ∧ dinv v ≠ ⊤)
    (x : Fin N → Fin C → EReal) (W1 : Fin C → Fin C → EReal) (b1 : Fin C → EReal)
    (W2 : Fin C → Fin C → EReal) (b2 : Fin C → EReal) :
    kernelOut src hit w dinv x W1 b1 W2 b2 = refOut src dstc hit w dinv x W1 b1 W2 b2 := by
  unfold kernelOut refOut
  rw [layer_eq src dstc hit w dinv hd hpos (dense x W1) b1,
    layer_eq src dstc hit w dinv hd hpos (dense (epiR (aggR src dstc hit w dinv (dense x W1)) b1) W2) b2]

end Law

end Cert.Proof.Gcn

end
-- ==== Proof.LibGatherRows.lean ====
/-
  `stablehlo.gather` of whole ROWS of a rank-2 operand at a column of start indices, read at an index.

  What `x[idx]` of a table `x : [N, C]` at an integer vector `idx : [E]` lowers to: the gather with offset_dims `[1]`,
  collapsed_slice_dims `[0]`, start_index_map `[0]`, slice_sizes `[1, C]` and index_vector_dim 1 over the indices as
  `[E, 1]`. Result element `(e, k)` is the operand at row `idx[e, 0]` — read as a signed integer and clamped into
  `[0, N − 1]`, as the gather clamps every start index — and column `k`.
-/
import Idealize.ShloMosaic.Lib.ValueIdx

noncomputable section

namespace Cert.Proof.LibGatherRows

open Idealize.ShloMosaic Idealize.ShloMosaic.ValueIdx

variable {α : Type}

/-- The dimension numbers of a gather of rows: operand `[N, C]`, start indices `[E, 1]`, result `[E, C]`; their
    conditions `wf` are decided on a program's literal shapes. -/
abbrev rowsDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the operand at row `idx[e, 0]`, read signed and clamped into `[0, N − 1]`,
    and column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowsDims N C E wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (rowsDims N C E wf).start y idx 0 + (rowsDims N C E wf).batchCoord y 0 + (rowsDims N C E wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx y ⟨List.idxOf (0 : Fin 2) (rowsDims N C E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N C E wf).start y idx 1 + (rowsDims N C E wf).batchCoord y 1 + (rowsDims N C E wf).offCoord y 1 = (y 1).val
    rw [GatherDims.batchCoord_eq_zero _ _ _ List.not_mem_nil]
    unfold GatherDims.start
    rw [dif_neg (show ¬ (1 : Fin 2) ∈ (rowsDims N C E wf).startIndexMap from (by decide : (1 : Fin 2) ∉ ([0] : List (Fin 2))))]
    simp only [Nat.add_zero, Nat.zero_add]
    unfold GatherDims.offCoord
    rw [dif_pos (show (1 : Fin 2) ∈ (rowsDims N C E wf).sKept from (GatherDims.mem_sKept _ _).mpr
      ⟨(by decide : (1 : Fin 2) ∉ ([0] : List (Fin 2))), List.not_mem_nil⟩)]
    rfl

/-- The same at an index given by its coordinates. -/
theorem gather_rows_at {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨min (idx (ix2 e (0 : Fin 1))).toInt.toNat (N - 1), by omega⟩ k) :=
  gather_rows_apply hN wf x idx (ix2 e k)

/-- The same with the row named: where the clamped start index is `r`, the gather reads row `r`. -/
theorem gather_rows_of_eq {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e (0 : Fin 1))).toInt.toNat (N - 1) = r.val) :
    Host.gather (rowsDims N C E wf) x idx (ix2 e k) = x (ix2 r k) := by
  rw [gather_rows_at hN]
  congr 1
  funext a; refine Fin.ext ?_
  match a with
  | ⟨0, _⟩ => exact hr
  | ⟨1, _⟩ => rfl

end Cert.Proof.LibGatherRows

end
-- ==== Proof.LibScatterRows.lean ====
/-
  The accumulating `stablehlo.scatter` of whole ROWS into a rank-2 operand at a column of scatter indices, read at an
  index over the extended reals.

  What `x.at[idx].add(u)` of a table `x : [N, C]`, an integer vector `idx : [E]` and updates `u : [E, C]` lowers to: the
  scatter with update_window_dims `[1]`, inserted_window_dims `[0]`, scatter_dims_to_operand_dims `[0]` and
  index_vector_dim 1 over the indices as `[E, 1]`. Update element `(e, c)` lands on operand element `(idx[e, 0], c)`,
  the index read as a signed integer and not clamped (an update whose row is outside the operand is dropped). At the
  ideal instance the result element `(n, k)` is the operand's plus the sum of the updates `(e, k)` over the `e` whose
  index names row `n`.
-/
import Idealize.ShloMosaic.Lib.ValueIdx

noncomputable section

namespace Cert.Proof.LibScatterRows

open Idealize.ShloMosaic Idealize.ShloMosaic.ValueIdx
open scoped BigOperators

/-- The dimension numbers of a scatter of rows: operand `[N, C]`, scatter indices `[E, 1]`, updates `[E, C]`; their
    conditions `wf` are decided on a program's literal shapes. -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- The window of update `(e, c)` starts at row `idx[e, 0]`, read signed … -/
theorem start_row (j : (⟨2, ![E, C]⟩ : Shape).Idx) (idx : IVec ⟨2, ![E, 1]⟩ w) :
    (rowsDims N C E wf).start j idx 0 = (idx (ix2 (j 0) (0 : Fin 1))).toInt := by
  unfold ScatterDims.start
  rw [dif_pos (show (0 : Fin 2) ∈ (rowsDims N C E wf).scatterDimsToOperandDims from List.mem_singleton.mpr rfl)]
  have hsi : (rowsDims N C E wf).siIdx j ⟨List.idxOf (0 : Fin 2) (rowsDims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and at column `0`; -/
theorem start_col (j : (⟨2, ![E, C]⟩ : Shape).Idx) (idx : IVec ⟨2, ![E, 1]⟩ w) :
    (rowsDims N C E wf).start j idx 1 = 0 := by
  unfold ScatterDims.start
  rw [dif_neg (show ¬ (1 : Fin 2) ∈ (rowsDims N C E wf).scatterDimsToOperandDims from (by decide : (1 : Fin 2) ∉ ([0] : List (Fin 2))))]

/-- its window coordinate is `0` on the row axis … -/
theorem window_row (j : (⟨2, ![E, C]⟩ : Shape).Idx) : (rowsDims N C E wf).window j 0 = 0 := by
  unfold ScatterDims.window
  rw [dif_neg (show ¬ (0 : Fin 2) ∈ (rowsDims N C E wf).sKept from
    (by decide : (0 : Fin 2) ∉ (List.finRange 2).filter (· ∉ ([0] : List (Fin 2)))))]

/-- … and the update's column on the column axis. -/
theorem window_col (j : (⟨2, ![E, C]⟩ : Shape).Idx) : (rowsDims N C E wf).window j 1 = (j 1).val := by
  unfold ScatterDims.window
  rw [dif_pos (show (1 : Fin 2) ∈ (rowsDims N C E wf).sKept from
    (by decide : (1 : Fin 2) ∈ (List.finRange 2).filter (· ∉ ([0] : List (Fin 2)))))]
  rfl

/-- Update `(e, c)` lands on operand element `(n, k)` exactly when its index names row `n` and `c = k`. -/
theorem resultIdx?_rows_iff (j : (⟨2, ![E, C]⟩ : Shape).Idx) (idx : IVec ⟨2, ![E, 1]⟩ w) (n : Fin N) (k : Fin C) :
    (rowsDims N C E wf).resultIdx? j idx = some (ix2 n k)
      ↔ (idx (ix2 (j 0) (0 : Fin 1))).toInt = (n.val : Int) ∧ j 1 = k := by
  unfold ScatterDims.resultIdx?
  have hs0 := start_row wf j idx
  have hs1 := start_col (w := w) wf j idx
  have hw0 := window_row wf j
  have hw1 := window_col wf j
  have hk := k.isLt
  have hn := n.isLt
  have hj := idx2_lt1 j
  constructor
  · intro h
    split at h
    · rename_i hall
      have h' := Option.some.inj h
      have e0 := congrArg (fun f => (f 0).val) h'
      have e1 := congrArg (fun f => (f 1).val) h'
      simp only at e0 e1
      have b0 := hall 0
      have b1 := hall 1
      rw [hs0, hw0] at e0 b0
      rw [hs1, hw1] at e1
      refine ⟨?_, Fin.ext ?_⟩
      · change ((idx (ix2 (j 0) (0 : Fin 1))).toInt + ((0 : Nat) : Int)).toNat = n.val at e0
        omega
      · change (0 + (((j 1).val : Nat) : Int)).toNat = k.val at e1
        omega
    · exact absurd h (by simp)
  · rintro ⟨h0, h1⟩
    have hall : ∀ a, 0 ≤ (rowsDims N C E wf).start j idx a + (rowsDims N C E wf).window j a
        ∧ (rowsDims N C E wf).start j idx a + (rowsDims N C E wf).window j a < (⟨2, ![N, C]⟩ : Shape).size a := by
      intro a
      match a with
      | ⟨0, _⟩ =>
        show 0 ≤ (rowsDims N C E wf).start j idx 0 + (rowsDims N C E wf).window j 0
          ∧ (rowsDims N C E wf).start j idx 0 + (rowsDims N C E wf).window j 0 < (N : Int)
        rw [hs0, hw0, h0]; omega
      | ⟨1, _⟩ =>
        show 0 ≤ (rowsDims N C E wf).start j idx 1 + (rowsDims N C E wf).window j 1
          ∧ (rowsDims N C E wf).start j idx 1 + (rowsDims N C E wf).window j 1 < (C : Int)
        rw [hs1, hw1]; omega
    rw [dif_pos hall]
    congr 1
    funext a
    refine Fin.ext ?_
    match a with
    | ⟨0, _⟩ =>
      show ((rowsDims N C E wf).start j idx 0 + (rowsDims N C E wf).window j 0).toNat = n.val
      rw [hs0, hw0, h0]; omega
    | ⟨1, _⟩ =>
      show ((rowsDims N C E wf).start j idx 1 + (rowsDims N C E wf).window j 1).toNat = k.val
      rw [hs1, hw1, ← h1]; omega

/-- THE ROW SCATTER-ADD READ AT `(n, k)`, at the ideal instance: the operand's element plus the sum, over the updates
    whose index names row `n`, of their column `k`. -/
theorem scatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowsDims N C E wf) x idx upd (ix2 n k)
      = x (ix2 n k) + ∑ e : Fin E, if (idx (ix2 e (0 : Fin 1))).toInt = (n.val : Int) then upd (ix2 e k) else 0 := by
  unfold Ideal.hostScatterAdd
  congr 1
  rw [Finset.sum_filter, sum_idx2]
  refine Finset.sum_congr rfl fun e _ => ?_
  have key : ∀ b : Fin C, ((rowsDims N C E wf).resultIdx? (ix2 e b) idx = some (ix2 n k))
      ↔ ((idx (ix2 e (0 : Fin 1))).toInt = (n.val : Int) ∧ b = k) := fun b => resultIdx?_rows_iff wf (ix2 e b) idx n k
  rw [Finset.sum_congr rfl (fun b _ => if_congr (key b) rfl rfl)]
  by_cases he : (idx (ix2 e (0 : Fin 1))).toInt = (n.val : Int)
  · simp only [he, true_and, if_true]
    rw [Finset.sum_ite_eq' Finset.univ k (fun c => upd (ix2 e c)), if_pos (Finset.mem_univ k)]
  · simp only [he, false_and, if_false, Finset.sum_const_zero]

/-- The same for the host operation the program spells (`Host.scatterAdd`, which at the ideal instance is that sum). -/
theorem host_scatterAdd_rows_apply {φ : FTy} (x : FVec Ideal ⟨2, ![N, C]⟩ φ) (idx : IVec ⟨2, ![E, 1]⟩ w)
    (upd : FVec Ideal ⟨2, ![E, C]⟩ φ) (n : Fin N) (k : Fin C) :
    Host.scatterAdd (F := Ideal) (rowsDims N C E wf) x idx upd (ix2 n k)
      = x (ix2 n k) + ∑ e : Fin E, if (idx (ix2 e (0 : Fin 1))).toInt = (n.val : Int) then upd (ix2 e k) else 0 :=
  scatterAdd_rows_apply wf x idx upd n k

end Cert.Proof.LibScatterRows

end
-- ==== Proof.LibGatherVec.lean ====
/-
  A gather of single ELEMENTS of a vector, read at an index.

  `stablehlo.gather` of a rank-1 operand [H] at start indices [N, 1] with the one axis collapsed and named by the
  start index (offset_dims [], collapsed_slice_dims [0], start_index_map [0], index_vector_dim 1, slice sizes [1])
  gives [N]: result element e is the operand at the position that start index e, read as a signed integer and
  clamped into the axis, names.

  Generic in the extents; the record's conditions `wf` are decided on literal shapes.
-/
import Idealize.ShloMosaic.PureOps
import Idealize.ShloMosaic.Lib.ValueIdx

noncomputable section

namespace Cert.LibGatherVec

open Idealize.ShloMosaic Idealize.ShloMosaic.ValueIdx

variable {α : Type}

/-- The dimension numbers of an element gather from `[H]` at start indices `[N, 1]` into `[N]`. -/
abbrev vecGatherDims (H N : Nat)
    (wf : GatherDims.WF ⟨1, ![H]⟩ ⟨2, ![N, 1]⟩ ⟨1, ![N]⟩ [] [0] [] [0] [] 1 ![1]) :
    GatherDims ⟨1, ![H]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

section Gather
variable {H N w : Nat}
  (wf : GatherDims.WF ⟨1, ![H]⟩ ⟨2, ![N, 1]⟩ ⟨1, ![N]⟩ [] [0] [] [0] [] 1 ![1])
  (idx : IVec ⟨2, ![N, 1]⟩ w) (e : Fin N)

/-- The operand position a result element reads: its start index, signed, clamped. -/
theorem gather_pos : ((vecGatherDims H N wf).operandIdx (ix1 e) idx (0 : Fin 1)).val
    = min (idx (ix2 e (0 : Fin 1))).toInt.toNat (H - 1) := by
  show (vecGatherDims H N wf).start (ix1 e) idx 0 + (vecGatherDims H N wf).batchCoord (ix1 e) 0
      + (vecGatherDims H N wf).offCoord (ix1 e) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 1) ∈ (vecGatherDims H N wf).startIndexMap from List.mem_cons_self)]
  have hsi : (vecGatherDims H N wf).siIdx (ix1 e) ⟨List.idxOf (0 : Fin 1) (vecGatherDims H N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- THE ELEMENT GATHER READ AT `e`: the operand at the position start index `e`, read signed and clamped into the
    axis, names. -/
theorem gather_vec_apply (hH : 0 < H) (x : (⟨1, ![H]⟩ : Shape).Idx → α) :
    Host.gather (vecGatherDims H N wf) x idx (ix1 e)
      = x (ix1 ⟨min (idx (ix2 e (0 : Fin 1))).toInt.toNat (H - 1), by omega⟩) := by
  unfold Host.gather
  refine congrArg x (funext fun a => Fin.ext ?_)
  match a with
  | ⟨0, _⟩ => exact gather_pos wf idx e

end Gather

end Cert.LibGatherVec

end
-- ==== Proof.GcnStage.lean ====
/-
  The host-side pieces of the graph convolution read at an index, over the literal shapes of this program:
  50000 nodes, 850000 edges (800000 given ones and one self-loop per node), 128 channels.

  * a column of start indices `[850000, 1]` names, per edge, the row a gather reads (read signed, clamped into the
    table: `rowOf`) and the row a scatter adds into (read signed, NOT clamped: `hitRow`; an edge outside hits nothing);
  * the column a gather is given is the index vector with negative entries wrapped by the table's length (`wrapCol`),
    the column a scatter is given is the index vector itself (`rawCol`); an edge that hits node `v` has `0 ≤ index < 50000`,
    so its wrapped, clamped reading is `v` again (`hit_wrap`);
  * one aggregation stage — gather rows, multiply each by its edge's factor, scatter-add into zeros — is at `(v, j)` the
    sum over the edges that hit `v` of the gathered element times the factor (`stage_apply`);
  * the inverse square root of a degree, where the degree is positive, and zero elsewhere, lies in `[0, ⊤)` (`dinv_pos`).

  The shape and index-map conditions the programs state are hypotheses here, so each program instantiates them with its own.
-/
import Idealize.ShloMosaic.Lib.ValueIdx
import Idealize.ShloMosaic.Lib.Pipeline.Value
import Idealize.ShloMosaic.PureOps.Ideal
import proofs.«124985_j584115552914_2_alg».proof.Proof.GcnLaw
import proofs.«124985_j584115552914_2_alg».proof.Proof.LibGatherRows
import proofs.«124985_j584115552914_2_alg».proof.Proof.LibScatterRows
import proofs.«124985_j584115552914_2_alg».proof.Proof.LibGatherVec

noncomputable section

namespace Cert.Proof.Gcn

open Idealize.ShloMosaic Idealize.ShloMosaic.ValueIdx
open scoped BigOperators

abbrev SN : Shape := ⟨2, ![50000, 128]⟩
abbrev SE : Shape := ⟨2, ![850000, 128]⟩
abbrev SE1 : Shape := ⟨2, ![850000, 1]⟩
abbrev SEv : Shape := ⟨1, ![850000]⟩
abbrev SNv : Shape := ⟨1, ![50000]⟩
abbrev S0 : Shape := ⟨0, ![]⟩
abbrev SW : Shape := ⟨2, ![128, 128]⟩
abbrev SN1 : Shape := ⟨2, ![50000, 1]⟩
abbrev SB : Shape := ⟨2, ![1, 128]⟩
abbrev SC : Shape := ⟨1, ![128]⟩
abbrev SI2 : Shape := ⟨2, ![2, 800000]⟩
abbrev SI1 : Shape := ⟨2, ![1, 800000]⟩
abbrev SIv : Shape := ⟨1, ![800000]⟩

/-- The table row edge `e`'s start index names for a gather: read signed, clamped into `[0, 49999]`. -/
def rowOf (idx : IVec SE1 32) (e : Fin 850000) : Fin 50000 :=
  ⟨min (idx (ix2 e (0 : Fin 1))).toInt.toNat (50000 - 1), by omega⟩

/-- Edge `e`'s scatter index names row `v`: read signed, not clamped. -/
def hitRow (idx : IVec SE1 32) (e : Fin 850000) (v : Fin 50000) : Prop :=
  (idx (ix2 e (0 : Fin 1))).toInt = (v.val : Int)

instance (idx : IVec SE1 32) (e : Fin 850000) (v : Fin 50000) : Decidable (hitRow idx e v) :=
  inferInstanceAs (Decidable (_ = _))

/-- An index vector as the column a scatter is given. -/
def rawCol (dv : IVec SEv 32) : IVec SE1 32 := fun i => dv (ix1 (i 0))

/-- An index vector as the column a gather is given: a negative entry wrapped by the table's length first. -/
def wrapCol (sv : IVec SEv 32) : IVec SE1 32 := fun i =>
  Scalar.select (IntOp.cmpi .slt (sv (ix1 (i 0))) 0#32) (IntOp.addi (sv (ix1 (i 0))) 50000#32) (sv (ix1 (i 0)))

/-- The all-zero 32-bit word denotes the extended real zero. -/
private theorem ofBits_zero_word : Ideal.ofBits .f32 0x00000000#32 = 0 := by simp [Ideal.ofBits, Ideal.ieee]

theorem rawCol_eq (hc : SEv.BroadcastsInDim SE1 (![0] : Fin 1 → Fin SE1.rank)) (dv : IVec SEv 32) :
    broadcastInDim SE1 ![0] hc dv = rawCol dv := by
  funext i
  unfold rawCol
  exact broadcastInDim_apply _ hc dv i (ix1 (i 0)) (fun a => match a with
    | ⟨0, _⟩ => by show (i 0).val = if (850000 : Nat) = 1 then 0 else (i 0).val; rw [if_neg (by decide)])

theorem wrapCol_eq (hb : S0.BroadcastsInDim SEv (![] : Fin 0 → Fin SEv.rank))
    (hc : SEv.BroadcastsInDim SE1 (![0] : Fin 1 → Fin SE1.rank)) (sv : IVec SEv 32) :
    broadcastInDim SE1 ![0] hc
      (select (cmpi .slt sv (broadcastInDim SEv ![] hb (constantI S0 32 0#32)))
        (addi sv (broadcastInDim SEv ![] hb (constantI S0 32 50000#32))) sv) = wrapCol sv := by
  funext i
  -- a scalar broadcast along the edge axis reads the scalar everywhere
  have hbc : ∀ (c : BitVec 32) (k : SEv.Idx), broadcastInDim SEv ![] hb (constantI S0 32 c) k = c := fun c k =>
    broadcastInDim_apply _ hb (constantI S0 32 c) k ix0 (fun a => a.elim0)
  unfold wrapCol
  refine (broadcastInDim_apply _ hc _ i (ix1 (i 0)) (fun a => match a with
    | ⟨0, _⟩ => by show (i 0).val = if (850000 : Nat) = 1 then 0 else (i 0).val; rw [if_neg (by decide)])).trans ?_
  show Scalar.select (IntOp.cmpi .slt (sv (ix1 (i 0))) (broadcastInDim SEv ![] hb (constantI S0 32 0#32) (ix1 (i 0))))
      (IntOp.addi (sv (ix1 (i 0))) (broadcastInDim SEv ![] hb (constantI S0 32 50000#32) (ix1 (i 0)))) (sv (ix1 (i 0))) = _
  rw [hbc, hbc]

/-- An edge that hits node `v` reads node `v` when its target is wrapped and clamped. -/
theorem hit_wrap (dv : IVec SEv 32) (e : Fin 850000) (v : Fin 50000) (h : hitRow (rawCol dv) e v) :
    rowOf (wrapCol dv) e = v := by
  -- the edge's target word, read signed, is the node's number: nonnegative and below the table's length
  have hb : (dv (ix1 e)).toInt = (v.val : Int) := h
  have hv := v.isLt
  -- so the signed comparison with zero fails and the word is kept as it is
  have hc : IntOp.cmpi .slt (dv (ix1 e)) 0#32 = 0#1 := by
    show BitVec.ofBool ((dv (ix1 e)).slt 0#32) = 0#1
    rw [BitVec.slt_eq_decide, hb, BitVec.toInt_zero, decide_eq_false (by omega)]
    rfl
  refine Fin.ext ?_
  show min (Scalar.select (IntOp.cmpi .slt (dv (ix1 e)) 0#32) (IntOp.addi (dv (ix1 e)) 50000#32)
      (dv (ix1 e))).toInt.toNat (50000 - 1) = v.val
  rw [hc, select_zero, hb]
  omega

/-- ONE AGGREGATION STAGE at `(v, j)`: over the edges that hit `v`, the gathered row's element times the edge's factor. -/
theorem stage_apply (hz : S0.BroadcastsInDim SN (![] : Fin 0 → Fin SN.rank))
    (hc : SEv.BroadcastsInDim SE1 (![0] : Fin 1 → Fin SE1.rank))
    (hcc : SE1.BroadcastsInDim SE (![0, 1] : Fin 2 → Fin SE.rank))
    (wfs : ScatterDims.WF SN SE1 SE [1] [0] [0] 1)
    (wfg : GatherDims.WF SN SE1 SE [1] [0] [] [0] [] 1 ![1, 128])
    (tbl : SN.Idx → EReal) (sI dI : IVec SE1 32) (wv : SEv.Idx → EReal) (v : Fin 50000) (j : Fin 128) :
    Host.scatterAdd (F := Ideal) (φ := .f32) (LibScatterRows.rowsDims 50000 128 850000 wfs)
        (broadcastInDim SN ![] hz (constant (F := Ideal) S0 .f32 0x00000000#32)) dI
        (mulf (F := Ideal) (φ := .f32) (Host.gather (LibGatherRows.rowsDims 50000 128 850000 wfg) tbl sI)
          (broadcastInDim SE ![0, 1] hcc (broadcastInDim SE1 ![0] hc wv))) (ix2 v j)
      = 0 + ∑ e : Fin 850000, if hitRow dI e v then tbl (ix2 (rowOf sI e) j) * wv (ix1 e) else 0 := by
  -- the operand is the zero table
  have hZ : broadcastInDim SN ![] hz (constant (F := Ideal) S0 .f32 0x00000000#32) (ix2 v j) = (0 : EReal) :=
    (broadcastInDim_apply _ hz (constant (F := Ideal) S0 .f32 0x00000000#32) (ix2 v j) ix0 (fun a => a.elim0)).trans
      ofBits_zero_word
  -- the factor, spread over the channels, reads the edge's factor at every channel
  have hB : ∀ e : Fin 850000,
      broadcastInDim SE ![0, 1] hcc (broadcastInDim SE1 ![0] hc wv) (ix2 e j) = wv (ix1 e) := fun e =>
    (broadcastInDim_apply _ hcc (broadcastInDim SE1 ![0] hc wv) (ix2 e j) (ix2 e (0 : Fin 1)) (fun a => match a with
      | ⟨0, _⟩ => by show e.val = if (850000 : Nat) = 1 then 0 else e.val; rw [if_neg (by decide)]
      | ⟨1, _⟩ => by show (0 : Nat) = if (1 : Nat) = 1 then 0 else j.val; rw [if_pos rfl])).trans
    (broadcastInDim_apply _ hc wv (ix2 e (0 : Fin 1)) (ix1 e) (fun a => match a with
      | ⟨0, _⟩ => by show e.val = if (850000 : Nat) = 1 then 0 else e.val; rw [if_neg (by decide)]))
  -- the scatter-add at (v, j): the operand's element plus the updates of the edges whose index names row v
  refine (LibScatterRows.host_scatterAdd_rows_apply wfs _ dI _ v j).trans ?_
  rw [hZ]
  refine congrArg (fun s => (0 : EReal) + s) ?_
  refine Finset.sum_congr rfl fun e _ => ?_
  refine if_congr Iff.rfl ?_ rfl
  -- the update of edge e at channel j: the gathered element times the edge's factor
  show Host.gather (LibGatherRows.rowsDims 50000 128 850000 wfg) tbl sI (ix2 e j)
      * broadcastInDim SE ![0, 1] hcc (broadcastInDim SE1 ![0] hc wv) (ix2 e j) = _
  rw [hB e, LibGatherRows.gather_rows_at (by decide) wfg tbl sI e j]
  rfl

/-- A vector gathered element by element at a column of start indices. -/
theorem gatherVec_apply (wfv : GatherDims.WF SNv SE1 SEv [] [0] [] [0] [] 1 ![1])
    (x : SNv.Idx → EReal) (idx : IVec SE1 32) (e : Fin 850000) :
    Host.gather (Cert.LibGatherVec.vecGatherDims 50000 850000 wfv) x idx (ix1 e) = x (ix1 (rowOf idx e)) := by
  exact Cert.LibGatherVec.gather_vec_apply wfv idx e (by decide) x

/-- At one extended real: the inverse square root where it is positive, zero elsewhere, is nonnegative and finite.
    Below zero or at zero the comparison fails and the value is zero; at a positive real it is the real `(√r)⁻¹`;
    at `⊤` the inverse square root is zero. -/
private theorem rsqrt_or_zero (d z z' : EReal) (hz : z = 0) (hz' : z' = 0) :
    0 ≤ Scalar.select (Ideal.cmp .ogt d z) (Ideal.rsqrt d) z'
      ∧ Scalar.select (Ideal.cmp .ogt d z) (Ideal.rsqrt d) z' ≠ ⊤ := by
  subst hz hz'
  by_cases hd : (0 : EReal) < d
  · have hc : Ideal.cmp .ogt d 0 = 1#1 := by
      show BitVec.ofBool (decide ((0 : EReal) < d)) = 1#1
      rw [decide_eq_true hd]; rfl
    rw [hc, select_one]
    induction d using EReal.rec with
    | bot => exact absurd hd (not_lt_bot)
    | top => rw [Ideal.rsqrt_top]; exact ⟨le_refl _, EReal.zero_ne_top⟩
    | coe r =>
      have hr : 0 < r := by exact_mod_cast hd
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false hd]; rfl
    rw [hc, select_zero]
    exact ⟨le_refl _, EReal.zero_ne_top⟩

/-- The inverse square root of the degree where it is positive, zero elsewhere: nonnegative and finite. -/
theorem dinv_pos (hb : S0.BroadcastsInDim SNv (![] : Fin 0 → Fin SNv.rank)) (deg : SNv.Idx → EReal) (v : SNv.Idx) :
    0 ≤ (select (cmpf (F := Ideal) (φ := .f32) .ogt deg (broadcastInDim SNv ![] hb (constant (F := Ideal) S0 .f32 0x00000000#32)))
          (Host.rsqrt (F := Ideal) (φ := .f32) deg)
          (broadcastInDim SNv ![] hb (id (constant (F := Ideal) S0 .f32 0x00000000#32))) : SNv.Idx → EReal) v
    ∧ (select (cmpf (F := Ideal) (φ := .f32) .ogt deg (broadcastInDim SNv ![] hb (constant (F := Ideal) S0 .f32 0x00000000#32)))
          (Host.rsqrt (F := Ideal) (φ := .f32) deg)
          (broadcastInDim SNv ![] hb (id (constant (F := Ideal) S0 .f32 0x00000000#32))) : SNv.Idx → EReal) v ≠ ⊤ := by
  -- the broadcast zero constant reads zero at every node
  have hz : broadcastInDim SNv ![] hb (constant (F := Ideal) S0 .f32 0x00000000#32) v = (0 : EReal) :=
    (broadcastInDim_apply _ hb (constant (F := Ideal) S0 .f32 0x00000000#32) v ix0 (fun a => a.elim0)).trans
      ofBits_zero_word
  -- the select, the comparison and the inverse square root are elementwise
  exact rsqrt_or_zero (deg v) _ _ hz hz

/-! ## What each kernel region leaves in its output array, as one function of its input arrays -/

/-- First region: the dense product's rows, each scaled by its node's factor (a `[50000, 1]` column). -/
def regionA (x : SN.Idx → EReal) (W : SW.Idx → EReal) (d : SN1.Idx → EReal) : SN.Idx → EReal :=
  fun i => (∑ k : Fin 128, x (ix2 (i 0) k) * W (ix2 k (i 1))) * d (ix2 (i 0) (0 : Fin 1))

/-- Second region: the first layer's epilogue (scale, bias as a `[1, 128]` row, clip) and the second dense product,
    scaled again. -/
def regionB (a : SN.Idx → EReal) (d : SN1.Idx → EReal) (b : SB.Idx → EReal) (W : SW.Idx → EReal) : SN.Idx → EReal :=
  fun i => (∑ k : Fin 128, max (a (ix2 (i 0) k) * d (ix2 (i 0) (0 : Fin 1)) + b (ix2 (0 : Fin 1) k)) 0 * W (ix2 k (i 1)))
    * d (ix2 (i 0) (0 : Fin 1))

/-- Third region: the second layer's epilogue. -/
def regionC (a : SN.Idx → EReal) (d : SN1.Idx → EReal) (b : SB.Idx → EReal) : SN.Idx → EReal :=
  fun i => max (a i * d (ix2 (i 0) (0 : Fin 1)) + b (ix2 (0 : Fin 1) (i 1))) 0

/-! ## The host terms both programs share, over the conditions both state -/

/-- The shape and index-map conditions of the shared host operations (each program states them as facts of its own). -/
structure HostEv : Prop where
  sl0 : SI2.Slices ![0, 0] SI1
  sl1 : SI2.Slices ![1, 0] SI1
  sc : SI1.ShapeCasts SIv
  cat : Shape.Concatenates [SIv, SNv] SEv 0
  b0N : S0.BroadcastsInDim SNv (![] : Fin 0 → Fin SNv.rank)
  b0E : S0.BroadcastsInDim SEv (![] : Fin 0 → Fin SEv.rank)
  col : SEv.BroadcastsInDim SE1 (![0] : Fin 1 → Fin SE1.rank)
  wf1 : ScatterDims.WF SNv SE1 SEv [] [0] [0] 1

/-- The vector scatter's dimension numbers (the degree's segment sum). -/
abbrev vecScatterDims (wf : ScatterDims.WF SNv SE1 SEv [] [0] [0] 1) : ScatterDims SNv SE1 SEv where
  updateWindowDims := []
  insertedWindowDims := [0]
  scatterDimsToOperandDims := [0]
  indexVectorDim := 1
  wf := wf

/-- Edge sources: row 0 of the edge list, then one self-loop per node. -/
def sv (ev : HostEv) (ei : IVec SI2 32) : IVec SEv 32 :=
  concatenate SEv 0 [⟨SIv, shapeCast SIv (extractStridedSlice SI1 ![0, 0] ei ev.sl0) ev.sc⟩, ⟨SNv, iotaInDim SNv 32 0⟩] ev.cat

/-- Edge targets: row 1 of the edge list, then one self-loop per node. -/
def dv (ev : HostEv) (ei : IVec SI2 32) : IVec SEv 32 :=
  concatenate SEv 0 [⟨SIv, shapeCast SIv (extractStridedSlice SI1 ![1, 0] ei ev.sl1) ev.sc⟩, ⟨SNv, iotaInDim SNv 32 0⟩] ev.cat

/-- Edge weights: the given ones, then one for every self-loop. -/
def w8 (ev : HostEv) (ew : SIv.Idx → EReal) : SEv.Idx → EReal :=
  concatenate SEv 0 [⟨SIv, ew⟩, ⟨SNv, broadcastInDim SNv ![] ev.b0N (constant (F := Ideal) S0 .f32 0x3F800000#32)⟩] ev.cat

/-- Weighted in-degree: the weights segment-summed at the targets. -/
def deg (ev : HostEv) (ei : IVec SI2 32) (ew : SIv.Idx → EReal) : SNv.Idx → EReal :=
  Host.scatterAdd (F := Ideal) (φ := .f32) (vecScatterDims ev.wf1)
    (broadcastInDim SNv ![] ev.b0N (constant (F := Ideal) S0 .f32 0x00000000#32))
    (broadcastInDim SE1 ![0] ev.col (dv ev ei)) (w8 ev ew)

/-- Its inverse square root where positive, zero elsewhere. -/
def dinv (ev : HostEv) (ei : IVec SI2 32) (ew : SIv.Idx → EReal) : SNv.Idx → EReal :=
  select (cmpf (F := Ideal) (φ := .f32) .ogt (deg ev ei ew) (broadcastInDim SNv ![] ev.b0N (constant (F := Ideal) S0 .f32 0x00000000#32)))
    (Host.rsqrt (F := Ideal) (φ := .f32) (deg ev ei ew))
    (broadcastInDim SNv ![] ev.b0N (id (constant (F := Ideal) S0 .f32 0x00000000#32)))

/-! ## The two programs' results as functions of the seven arguments -/

/-- The node-space form over this program's arrays. -/
def kernelSpec (ev : HostEv) (x : SN.Idx → EReal) (ei : IVec SI2 32) (ew : SIv.Idx → EReal) (W1 : SW.Idx → EReal)
    (b1 : SC.Idx → EReal) (W2 : SW.Idx → EReal) (b2 : SC.Idx → EReal) : SN.Idx → EReal := fun i =>
  kernelOut (rowOf (wrapCol (sv ev ei))) (hitRow (rawCol (dv ev ei))) (fun e => w8 ev ew (ix1 e)) (fun v => dinv ev ei ew (ix1 v))
    (fun u k => x (ix2 u k)) (fun k j => W1 (ix2 k j)) (fun j => b1 (ix1 j)) (fun k j => W2 (ix2 k j)) (fun j => b2 (ix1 j)) (i 0) (i 1)

/-- The edge-space form over this program's arrays. -/
def refSpec (ev : HostEv) (x : SN.Idx → EReal) (ei : IVec SI2 32) (ew : SIv.Idx → EReal) (W1 : SW.Idx → EReal)
    (b1 : SC.Idx → EReal) (W2 : SW.Idx → EReal) (b2 : SC.Idx → EReal) : SN.Idx → EReal := fun i =>
  refOut (rowOf (wrapCol (sv ev ei))) (rowOf (wrapCol (dv ev ei))) (hitRow (rawCol (dv ev ei))) (fun e => w8 ev ew (ix1 e))
    (fun v => dinv ev ei ew (ix1 v))
    (fun u k => x (ix2 u k)) (fun k j => W1 (ix2 k j)) (fun j => b1 (ix1 j)) (fun k j => W2 (ix2 k j)) (fun j => b2 (ix1 j)) (i 0) (i 1)

/-- The two are one function. -/
theorem kernelSpec_eq_refSpec (ev : HostEv) (x : SN.Idx → EReal) (ei : IVec SI2 32) (ew : SIv.Idx → EReal) (W1 : SW.Idx → EReal)
    (b1 : SC.Idx → EReal) (W2 : SW.Idx → EReal) (b2 : SC.Idx → EReal) :
    kernelSpec ev x ei ew W1 b1 W2 b2 = refSpec ev x ei ew W1 b1 W2 b2 := by
  funext i
  unfold kernelSpec refSpec
  rw [kernelOut_eq_refOut (rowOf (wrapCol (sv ev ei))) (rowOf (wrapCol (dv ev ei))) (hitRow (rawCol (dv ev ei)))
    (fun e => w8 ev ew (ix1 e)) (fun v => dinv ev ei ew (ix1 v)) (fun e v h => hit_wrap (dv ev ei) e v h)
    (fun v => dinv_pos ev.b0N (deg ev ei ew) (ix1 v))]

end Cert.Proof.Gcn

end
-- ==== Proof.KernelEv.lean ====
/-
  The shared host operations' shape and index-map conditions, as the idealized kernel program states them.
-/
import proofs.«124985_j584115552914_2_alg».proof.KernelIdeal
import proofs.«124985_j584115552914_2_alg».proof.Proof.GcnStage

noncomputable section

namespace Cert.KernelIdeal

open Idealize.ShloMosaic

variable [Facts]
open Facts₀ Facts

/-- The conditions of the host operations both programs share, from this program's stated facts. -/
theorem hostEv : Cert.Proof.Gcn.HostEv :=
  ⟨slices_S2x800000_S1x800000_0_0, slices_S2x800000_S1x800000_1_0, shapeCasts_S1x800000_S800000,
    concatenates_S800000_S50000_S850000_d0, bcast_S_S50000, bcast_S_S850000, bcast_S850000_S850000x1_0,
    scatter_S50000_S850000x1_S850000_n_0_0_1_wf⟩

end Cert.KernelIdeal

end
-- ==== Proof.KHost.lean ====
/-
  The idealized kernel program's host operations, one stretch at a time, at the ideal instance and from ANY buffer contents
  `X` at the stretch's start: which buffers a stretch writes, as functions of the buffers it reads, and which it leaves alone.

  * the first stretch builds the edge lists (sources, targets, weights, each with one self-loop per node appended), the weighted
    in-degree and the two ingredients of its inverse square root; the outlined select picks the root where the degree is
    positive and zero elsewhere; a reshape makes the per-node factor a `[50000, 1]` column;
  * each of the two later stretches is ONE aggregation (`stageOps`): gather the previous region's rows at the wrapped
    sources, multiply by the edge weights, scatter-add at the raw targets into zeros; read at `(v, j)` it is the sum over the
    edges that hit `v` (`stageOps_apply`); it also reshapes a bias vector to a `[1, 128]` row.
-/
import proofs.«124985_j584115552914_2_alg».proof.Proof.Gen.KernelIdeal.Frame
import proofs.«124985_j584115552914_2_alg».proof.Proof.GcnStage
import proofs.«124985_j584115552914_2_alg».proof.Proof.KernelEv
import Idealize.ShloMosaic.Lib.StableHlo.Run
import Idealize.ShloMosaic.Lib.ValueIdx

set_option maxRecDepth 16384

noncomputable section

namespace Cert.KernelIdeal.KHost

open Cert.KernelIdeal Cert.KernelIdeal.Gen Idealize.ShloMosaic Idealize.ShloMosaic.TcCoe Idealize.ShloMosaic.ValueIdx Idealize.SL.Sem
open Idealize.ShloMosaic.StableHlo
open Cert.Proof
open scoped BigOperators

/-- One aggregation stretch as the program spells it: rows of `tbl` gathered at the wrapped sources, times the edge
    weights broadcast along the channels, scatter-added at the raw targets into zeros. -/
def stageOps (tbl : FVec Ideal S50000x128 .bf16) (sv dv : IVec S850000 32) (wv : FVec Ideal S850000 .f32) :
    FVec Ideal S50000x128 .f32 :=
  Host.scatterAdd (F := Ideal) (φ := .f32) scatter_S50000x128_S850000x1_S850000x128_1_0_0_1
    (broadcastInDim S50000x128 ![] bcast_S_S50000x128 (constant (F := Ideal) S_ .f32 0x00000000#32))
    (broadcastInDim S850000x1 ![0] bcast_S850000_S850000x1_0 dv)
    (mulf (F := Ideal) (φ := .f32) (extf (F := Ideal) (φ := .bf16) .f32 (Host.gather gather_S50000x128_S850000x1_S850000x128_1_0_n_n_0_1_1128 tbl
        (broadcastInDim S850000x1 ![0] bcast_S850000_S850000x1_0
          (select (cmpi .slt sv (broadcastInDim S850000 ![] bcast_S_S850000 (constantI S_ 32 0#32)))
            (addi sv (broadcastInDim S850000 ![] bcast_S_S850000 (constantI S_ 32 50000#32))) sv))) bitsLt_bf16_f32)
      (broadcastInDim S850000x128 ![0, 1] bcast_S850000x1_S850000x128_0_1
        (broadcastInDim S850000x1 ![0] bcast_S850000_S850000x1_0 wv)))

/-- The aggregation at `(v, j)`: over the edges whose target is `v`, the source row's element times the edge's weight. -/
theorem stageOps_apply (tbl : FVec Ideal S50000x128 .bf16) (sv dv : IVec S850000 32) (wv : FVec Ideal S850000 .f32)
    (v : Fin 50000) (j : Fin 128) :
    stageOps tbl sv dv wv (ix2 v j)
      = 0 + ∑ e : Fin 850000, if Gcn.hitRow (Gcn.rawCol dv) e v then tbl (ix2 (Gcn.rowOf (Gcn.wrapCol sv) e) j) * wv (ix1 e) else 0 := by
  unfold stageOps
  rw [Gcn.wrapCol_eq bcast_S_S850000 bcast_S850000_S850000x1_0 sv, Gcn.rawCol_eq bcast_S850000_S850000x1_0 dv]
  exact Gcn.stage_apply bcast_S_S50000x128 bcast_S850000_S850000x1_0 bcast_S850000x1_S850000x128_0_1
    scatter_S50000x128_S850000x1_S850000x128_1_0_0_1_wf gather_S50000x128_S850000x1_S850000x128_1_0_n_n_0_1_1128_wf
    tbl (Gcn.wrapCol sv) (Gcn.rawCol dv) wv v j

variable (X : Valuation τ sig (Elt Ideal))

/-! ## The first stretch: edge lists, degree, the root's ingredients -/

theorem s0_v5 : (StableHlo.after (hostOps0 (F := Ideal)) X (Proc.devRef .tc main_v5) : S850000.Idx → BitVec 32)
    = Gcn.sv Cert.KernelIdeal.hostEv (X (Proc.devRef .tc main_arg1)) := by
  after_results
  all_goals rfl
theorem s0_v6 : (StableHlo.after (hostOps0 (F := Ideal)) X (Proc.devRef .tc main_v6) : S850000.Idx → BitVec 32)
    = Gcn.dv Cert.KernelIdeal.hostEv (X (Proc.devRef .tc main_arg1)) := by
  after_results
  all_goals rfl
theorem s0_v8 : (StableHlo.after (hostOps0 (F := Ideal)) X (Proc.devRef .tc main_v8) : S850000.Idx → EReal)
    = Gcn.w8 Cert.KernelIdeal.hostEv (X (Proc.devRef .tc main_arg2)) := by
  after_results
  all_goals rfl
theorem s0_v13 : (StableHlo.after (hostOps0 (F := Ideal)) X (Proc.devRef .tc main_v13) : S50000.Idx → BitVec 1)
    = cmpf (F := Ideal) (φ := .f32) .ogt (Gcn.deg Cert.KernelIdeal.hostEv (X (Proc.devRef .tc main_arg1)) (X (Proc.devRef .tc main_arg2)))
        (broadcastInDim S50000 ![] bcast_S_S50000 (constant (F := Ideal) S_ .f32 0x00000000#32)) := by
  after_results
  all_goals rfl
theorem s0_v14 : (StableHlo.after (hostOps0 (F := Ideal)) X (Proc.devRef .tc main_v14) : S50000.Idx → EReal)
    = Host.rsqrt (F := Ideal) (φ := .f32) (Gcn.deg Cert.KernelIdeal.hostEv (X (Proc.devRef .tc main_arg1)) (X (Proc.devRef .tc main_arg2))) := by
  after_results
  all_goals rfl
theorem s0_cst2 : (StableHlo.after (hostOps0 (F := Ideal)) X (Proc.devRef .tc main_cst_2) : S_.Idx → EReal)
    = constant (F := Ideal) S_ .f32 0x00000000#32 := by
  after_results
  all_goals rfl
theorem s0_keep_arg0 : StableHlo.after (hostOps0 (F := Ideal)) X (Proc.devRef .tc main_arg0) = X (Proc.devRef .tc main_arg0) := by
  after_results
theorem s0_keep_arg3 : StableHlo.after (hostOps0 (F := Ideal)) X (Proc.devRef .tc main_arg3) = X (Proc.devRef .tc main_arg3) := by
  after_results
theorem s0_keep_arg4 : StableHlo.after (hostOps0 (F := Ideal)) X (Proc.devRef .tc main_arg4) = X (Proc.devRef .tc main_arg4) := by
  after_results
theorem s0_keep_arg5 : StableHlo.after (hostOps0 (F := Ideal)) X (Proc.devRef .tc main_arg5) = X (Proc.devRef .tc main_arg5) := by
  after_results
theorem s0_keep_arg6 : StableHlo.after (hostOps0 (F := Ideal)) X (Proc.devRef .tc main_arg6) = X (Proc.devRef .tc main_arg6) := by
  after_results

/-! ## The outlined select, and the reshape to a column -/

theorem s01_v15 : (StableHlo.after (hostOps0_1 (F := Ideal)) X (Proc.devRef .tc main_v15) : S50000.Idx → EReal)
    = select (X (Proc.devRef .tc main_v13)) (X (Proc.devRef .tc main_v14)) (broadcastInDim S50000 ![] bcast_S_S50000 (id (X (Proc.devRef .tc main_cst_2)))) := by
  after_results
  all_goals rfl
theorem s01_keep_v5 : StableHlo.after (hostOps0_1 (F := Ideal)) X (Proc.devRef .tc main_v5) = X (Proc.devRef .tc main_v5) := by
  after_results
theorem s01_keep_v6 : StableHlo.after (hostOps0_1 (F := Ideal)) X (Proc.devRef .tc main_v6) = X (Proc.devRef .tc main_v6) := by
  after_results
theorem s01_keep_v8 : StableHlo.after (hostOps0_1 (F := Ideal)) X (Proc.devRef .tc main_v8) = X (Proc.devRef .tc main_v8) := by
  after_results
theorem s01_keep_arg0 : StableHlo.after (hostOps0_1 (F := Ideal)) X (Proc.devRef .tc main_arg0) = X (Proc.devRef .tc main_arg0) := by
  after_results
theorem s01_keep_arg3 : StableHlo.after (hostOps0_1 (F := Ideal)) X (Proc.devRef .tc main_arg3) = X (Proc.devRef .tc main_arg3) := by
  after_results
theorem s01_keep_arg4 : StableHlo.after (hostOps0_1 (F := Ideal)) X (Proc.devRef .tc main_arg4) = X (Proc.devRef .tc main_arg4) := by
  after_results
theorem s01_keep_arg5 : StableHlo.after (hostOps0_1 (F := Ideal)) X (Proc.devRef .tc main_arg5) = X (Proc.devRef .tc main_arg5) := by
  after_results
theorem s01_keep_arg6 : StableHlo.after (hostOps0_1 (F := Ideal)) X (Proc.devRef .tc main_arg6) = X (Proc.devRef .tc main_arg6) := by
  after_results

theorem s02_v16 : (StableHlo.after (hostOps0_2 (F := Ideal)) X (Proc.devRef .tc main_v16) : S50000x1.Idx → EReal)
    = shapeCast S50000x1 (X (Proc.devRef .tc main_v15)) shapeCasts_S50000_S50000x1 := by
  after_results
  all_goals rfl
theorem s02_keep_v5 : StableHlo.after (hostOps0_2 (F := Ideal)) X (Proc.devRef .tc main_v5) = X (Proc.devRef .tc main_v5) := by
  after_results
theorem s02_keep_v6 : StableHlo.after (hostOps0_2 (F := Ideal)) X (Proc.devRef .tc main_v6) = X (Proc.devRef .tc main_v6) := by
  after_results
theorem s02_keep_v8 : StableHlo.after (hostOps0_2 (F := Ideal)) X (Proc.devRef .tc main_v8) = X (Proc.devRef .tc main_v8) := by
  after_results
theorem s02_keep_arg0 : StableHlo.after (hostOps0_2 (F := Ideal)) X (Proc.devRef .tc main_arg0) = X (Proc.devRef .tc main_arg0) := by
  after_results
theorem s02_keep_arg3 : StableHlo.after (hostOps0_2 (F := Ideal)) X (Proc.devRef .tc main_arg3) = X (Proc.devRef .tc main_arg3) := by
  after_results
theorem s02_keep_arg4 : StableHlo.after (hostOps0_2 (F := Ideal)) X (Proc.devRef .tc main_arg4) = X (Proc.devRef .tc main_arg4) := by
  after_results
theorem s02_keep_arg5 : StableHlo.after (hostOps0_2 (F := Ideal)) X (Proc.devRef .tc main_arg5) = X (Proc.devRef .tc main_arg5) := by
  after_results
theorem s02_keep_arg6 : StableHlo.after (hostOps0_2 (F := Ideal)) X (Proc.devRef .tc main_arg6) = X (Proc.devRef .tc main_arg6) := by
  after_results

/-! ## The two aggregation stretches -/

set_option maxHeartbeats 4000000 in
theorem s1_v31 : (StableHlo.after (hostOps1 (F := Ideal)) X (Proc.devRef .tc main_v31) : S50000x128.Idx → EReal)
    = stageOps (X (Proc.devRef .tc main_v17)) (X (Proc.devRef .tc main_v5)) (X (Proc.devRef .tc main_v6)) (X (Proc.devRef .tc main_v8)) := by
  after_results_simp
  all_goals (unfold stageOps; rfl)
theorem s1_v32 : (StableHlo.after (hostOps1 (F := Ideal)) X (Proc.devRef .tc main_v32) : S1x128.Idx → EReal)
    = shapeCast S1x128 (X (Proc.devRef .tc main_arg4)) shapeCasts_S128_S1x128 := by
  after_results
  all_goals rfl
theorem s1_keep_v5 : StableHlo.after (hostOps1 (F := Ideal)) X (Proc.devRef .tc main_v5) = X (Proc.devRef .tc main_v5) := by
  after_results
theorem s1_keep_v6 : StableHlo.after (hostOps1 (F := Ideal)) X (Proc.devRef .tc main_v6) = X (Proc.devRef .tc main_v6) := by
  after_results
theorem s1_keep_v8 : StableHlo.after (hostOps1 (F := Ideal)) X (Proc.devRef .tc main_v8) = X (Proc.devRef .tc main_v8) := by
  after_results
theorem s1_keep_v16 : StableHlo.after (hostOps1 (F := Ideal)) X (Proc.devRef .tc main_v16) = X (Proc.devRef .tc main_v16) := by
  after_results
theorem s1_keep_arg5 : StableHlo.after (hostOps1 (F := Ideal)) X (Proc.devRef .tc main_arg5) = X (Proc.devRef .tc main_arg5) := by
  after_results
theorem s1_keep_arg6 : StableHlo.after (hostOps1 (F := Ideal)) X (Proc.devRef .tc main_arg6) = X (Proc.devRef .tc main_arg6) := by
  after_results

set_option maxHeartbeats 4000000 in
theorem s2_v47 : (StableHlo.after (hostOps2 (F := Ideal)) X (Proc.devRef .tc main_v47) : S50000x128.Idx → EReal)
    = stageOps (X (Proc.devRef .tc main_v33)) (X (Proc.devRef .tc main_v5)) (X (Proc.devRef .tc main_v6)) (X (Proc.devRef .tc main_v8)) := by
  after_results_simp
  all_goals (unfold stageOps; rfl)
theorem s2_v48 : (StableHlo.after (hostOps2 (F := Ideal)) X (Proc.devRef .tc main_v48) : S1x128.Idx → EReal)
    = shapeCast S1x128 (X (Proc.devRef .tc main_arg6)) shapeCasts_S128_S1x128 := by
  after_results
  all_goals rfl
theorem s2_keep_v16 : StableHlo.after (hostOps2 (F := Ideal)) X (Proc.devRef .tc main_v16) = X (Proc.devRef .tc main_v16) := by
  after_results

end Cert.KernelIdeal.KHost

end
-- ==== Proof.KRegion0.lean ====
/-
  The first region at the ideal instance, from blocks to the array. Grid point `t` of ten stages rows 5000·t … 5000·t + 4999 of
  the node features and of the per-node factor column, the whole weight matrix, and writes back the same rows of the output:
  the block's rows times the weights, each row scaled by its factor. The ten blocks tile the 50000 rows, so the array ends as
  one function of the three input arrays as the region finds them.
-/
import proofs.«124985_j584115552914_2_alg».proof.Proof.Gen.KernelIdeal.Frame
import proofs.«124985_j584115552914_2_alg».proof.Proof.GcnStage
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Cert.Proof.Gcn (regionA regionB regionC)
open scoped BigOperators

variable (V : (c : Dev nD) → (b : Ref sig .tc) → Buf (Elt Ideal) ((c : Thread nD τ).loc b))

/-- The block offsets of a staging buffer are all zero. -/
theorem zeroOffsets : (![0, 0] : Fin 2 → Nat) = fun _ => 0 := funext fun a => by fin_cases a <;> rfl

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The dense product of a block of rows with the weights, at one element -/

/-- The left operand's row coordinate is the output's row. -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate is the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product accumulated into zeros, at `(p, q)`: the sum over the 128 channels of row `p` of the left operand times
    column `q` of the right one. -/
theorem matmul_zero_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (dot_S5000x128_S128x128_S5000x128_1_0_0_1_n_n.rhsIdx_val_of_single rfl _ _).trans hk
      | ⟨1, _⟩ => exact rhs_col _ _)
  rw [el, er]

/-- THE BODY AT ONE ELEMENT: row `p`, channel `q` of the block written is row `p` of the features times column `q` of
    the weights, scaled by the row's factor (the format changes are the identity on the extended reals). -/
theorem pay_apply (x0 : Vec Ideal S5000x128 .f32) (x1 : Vec Ideal S128x128 .f32) (x2 : Vec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  show matmul dot_S5000x128_S128x128_S5000x128_1_0_0_1_n_n none
        (truncf (F := Ideal) .bf16 x0 bitsLt_bf16_f32) (truncf (F := Ideal) .bf16 x1 bitsLt_bf16_f32)
        (constant (F := Ideal) S5000x128 .f32 0x00000000#32) (ix2 p q)
      * broadcastTo S5000x128 (shapeCast S5000x1 x2 shapeCasts_S5000x1_S5000x1) broadcasts_S5000x1_S5000x128 (ix2 p q) = _
  rw [matmul_zero_apply, shapeCast_self, broadcastTo_a1_ab_apply]
  rfl

/-! ## From the blocks to the array -/

/-- The block indices over the ten grid points: the features', the factor column's and the output's blocks are block `t`
    of the rows; the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of block `t` is row `5000 t + p` of the array. -/
theorem row_lt (t : Fin cfg0.N) (p : Fin 5000) : t.val * 5000 + p.val < 50000 := by
  have hN : grid0.N = 10 := N_0
  have ht : t.val < grid0.N := t.isLt
  have hp := p.isLt
  omega

/-- The features' block at point `t`, read at `(p, k)`. -/
theorem blkFeat_apply (c : Dev nD) (t : Fin cfg0.N) (p : Fin 5000) (k : Fin 128) :
    (iblk0 V c 0 t : Vec Ideal S5000x128 .f32) (ix2 p k)
      = (V c main_arg0 : S50000x128.Idx → EReal) (ix2 ⟨t.val * 5000 + p.val, row_lt t p⟩ k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weights' block at point `t` is the whole matrix. -/
theorem blkW_apply (c : Dev nD) (t : Fin cfg0.N) (k q : Fin 128) :
    (iblk0 V c 1 t : Vec Ideal S128x128 .f32) (ix2 k q) = (V c main_arg3 : S128x128.Idx → EReal) (ix2 k q) := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- The factor column's block at point `t`, read at row `p`. -/
theorem blkFac_apply (c : Dev nD) (t : Fin cfg0.N) (p : Fin 5000) :
    (iblk0 V c 2 t : Vec Ideal S5000x1 .f32) (ix2 p (0 : Fin 1))
      = (V c main_v16 : S50000x1.Idx → EReal) (ix2 ⟨t.val * 5000 + p.val, row_lt t p⟩ (0 : Fin 1)) := by
  obtain ⟨-, -, -, -, e0, e1, -⟩ := idx_facts t
  unfold iblk0
  rw [View.read_apply]
  show V c main_v16 _ = V c main_v16 _
  congr 1
  funext a
  apply Fin.ext
  match a with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- The region's function at row `r`, channel `q`. -/
theorem regionA_apply (x : Cert.Proof.Gcn.SN.Idx → EReal) (W : Cert.Proof.Gcn.SW.Idx → EReal) (d : Cert.Proof.Gcn.SN1.Idx → EReal)
    (r : Fin 50000) (q : Fin 128) :
    regionA x W d (ix2 r q) = (∑ k : Fin 128, x (ix2 r k) * W (ix2 k q)) * d (ix2 r (0 : Fin 1)) := rfl

/-- WHAT POINT `t` WRITES BACK is block `t` of the region's function of the three arrays. -/
theorem flushed_eq (c : Dev nD) (t : Fin cfg0.N) :
    (dat0 (F := Ideal) V c).flushed 3 t
      = ((cfg0.win 3).blk t).view.read (Elt Ideal) (regionA (V c main_arg0) (V c main_arg3) (V c main_v16)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets,
    View.ld_unit_zero (S := S5000x1) zeroOffsets]
  obtain ⟨-, -, -, -, -, -, e0, e1⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = regionA (V c main_arg0) (V c main_arg3) (V c main_v16) (((cfg0.win 3).blk t).view.emb (ix2 p q))
  have hemb : ((cfg0.win 3).blk t).view.emb (ix2 p q) = (ix2 ⟨t.val * 5000 + p.val, row_lt t p⟩ q : S50000x128.Idx) := by
    funext a
    apply Fin.ext
    match a with
    | ⟨0, _⟩ => show win0_3.index t (0 : Fin 2) * 5000 + 1 * p.val = t.val * 5000 + p.val; rw [e0]; omega
    | ⟨1, _⟩ => show win0_3.index t (1 : Fin 2) * 128 + 1 * q.val = q.val; rw [e1]; omega
  rw [hemb, pay_apply (iblk0 V c 0 t) (iblk0 V c 1 t) (iblk0 V c 2 t) p q, blkFac_apply V c t p, regionA_apply]
  refine congrArg (· * _) (Finset.sum_congr rfl fun k _ => ?_)
  rw [blkFeat_apply V c t p k, blkW_apply V c t k q]

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- THE TEN BLOCKS TILE THE ROWS: row `r` is in the block of point `r / 5000`. -/
theorem cover (i : S50000x128.Idx) :
    ∃ t : Fin cfg0.N, (cfg0.win 3).flush t = true ∧ i ∈ ((cfg0.win 3).blk t).view.set := by
  have hN : grid0.N = 10 := N_0
  have hi0 : (i 0).val < 50000 := (i 0).isLt
  have hi1 : (i 1).val < 128 := (i 1).isLt
  refine ⟨⟨(i 0).val / 5000, by show (i 0).val / 5000 < grid0.N; omega⟩, flush0_3 _, ?_⟩
  rw [mem_blk]
  obtain ⟨-, -, -, -, -, -, e0, e1⟩ := idx_facts ⟨(i 0).val / 5000, by show (i 0).val / 5000 < grid0.N; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- The first region's output array after its ten grid points: row `u` is the dense product's row `u` scaled by the node's factor. -/
theorem arr (c : Dev nD) :
    (dat0 (F := Ideal) V c).arrAt 3 cfg0.N = regionA (V c main_arg0) (V c main_arg3) (V c main_v16) :=
  (dat0 (F := Ideal) V c).arrAt_eq_of_cover 3 (regionA (V c main_arg0) (V c main_arg3) (V c main_v16))
    (fun t _ => flushed_eq V c t) cover

end Cert.KernelIdeal.Region0

end
-- ==== Proof.KRegion1.lean ====
/-
  The second region at the ideal instance, from blocks to the array. Grid point `t` of ten stages rows 5000·t … 5000·t + 4999 of
  the first aggregate and of the per-node factor column, the whole bias row and the whole second weight matrix, and writes back
  the same rows of the output: scale, bias, clip at zero, then the rows times the weights, scaled again. The ten blocks tile the
  50000 rows.
-/
import proofs.«124985_j584115552914_2_alg».proof.Proof.Gen.KernelIdeal.Frame
import proofs.«124985_j584115552914_2_alg».proof.Proof.GcnStage
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Cert.Proof.Gcn (regionA regionB regionC)
open scoped BigOperators

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The dense product's operand indices: output `(p, q)` and contraction coordinate `k` read `(p, k)` and `(k, q)` -/

theorem dense_lhs_0 (i : S5000x128.Idx) (z : dot_S5000x128_S128x128_S5000x128_1_0_0_1_n_n.contr.Idx) :
    (dot_S5000x128_S128x128_S5000x128_1_0_0_1_n_n.lhsIdx i z 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dense_lhs_1 (i : S5000x128.Idx) (z : dot_S5000x128_S128x128_S5000x128_1_0_0_1_n_n.contr.Idx) :
    (dot_S5000x128_S128x128_S5000x128_1_0_0_1_n_n.lhsIdx i z 1).val = (z ⟨0, by decide⟩).val :=
  dot_S5000x128_S128x128_S5000x128_1_0_0_1_n_n.lhsIdx_val_of_single rfl i z
theorem dense_rhs_0 (i : S5000x128.Idx) (z : dot_S5000x128_S128x128_S5000x128_1_0_0_1_n_n.contr.Idx) :
    (dot_S5000x128_S128x128_S5000x128_1_0_0_1_n_n.rhsIdx i z 0).val = (z ⟨0, by decide⟩).val :=
  dot_S5000x128_S128x128_S5000x128_1_0_0_1_n_n.rhsIdx_val_of_single rfl i z
theorem dense_rhs_1 (i : S5000x128.Idx) (z : dot_S5000x128_S128x128_S5000x128_1_0_0_1_n_n.contr.Idx) :
    (dot_S5000x128_S128x128_S5000x128_1_0_0_1_n_n.rhsIdx i z 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The dense product into the zero accumulator at `(p, q)`: row `p` of the left operand against column `q` of the right. -/
theorem dense_apply (l : FVec Ideal S5000x128 .bf16) (r : FVec Ideal S128x128 .bf16) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dense_lhs_0 _ _
    | ⟨1, _⟩ => exact (dense_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dense_rhs_0 _ _).trans hk
    | ⟨1, _⟩ => exact dense_rhs_1 _ _)
  rw [el, er]

/-! ## The body's arithmetic at `(p, q)` -/

/-- The first layer's epilogue at `(p, k)`: the aggregate scaled by the row's factor, the bias added, clipped at zero. -/
theorem epilogue_apply (x0 : Vec Ideal S5000x1 .f32) (x1 : Vec Ideal S5000x128 .f32) (x2 : Vec Ideal S1x128 .f32)
    (h0 : S5000x1.ShapeCasts S5000x1) (h1 : S5000x128.ShapeCasts S5000x128) (h2 : S1x128.ShapeCasts S1x128)
    (hb0 : S5000x1.Broadcasts S5000x128) (hb2 : S1x128.Broadcasts S5000x128) (p : Fin 5000) (k : Fin 128) :
    (maximumf (F := Ideal) (φ := .f32) (addf (F := Ideal) (φ := .f32) (mulf (F := Ideal) (φ := .f32) (shapeCast S5000x128 x1 h1)
          (broadcastTo S5000x128 (shapeCast S5000x1 x0 h0) hb0))
        (broadcastTo S5000x128 (shapeCast S1x128 x2 h2) hb2))
      (broadcast S5000x128 (Scalar.ofBits (F := Ideal) .f32 0x00000000#32))) (ix2 p k)
    = max (x1 (ix2 p k) * x0 (ix2 p (0 : Fin 1)) + x2 (ix2 (0 : Fin 1) k)) 0 := by
  rw [shapeCast_self, shapeCast_self, shapeCast_self]
  show max (x1 (ix2 p k) * broadcastTo S5000x128 x0 hb0 (ix2 p k) + broadcastTo S5000x128 x2 hb2 (ix2 p k)) (Ideal.ofBits .f32 0x00000000#32) = _
  rw [broadcastTo_a1_ab_apply, broadcastTo_1b_ab_apply, Ideal.ofBits_zero_f32]

/-- THE PAYLOAD AT `(p, q)`: the epilogue's row `p` against column `q` of the weights, scaled by the row's factor. -/
theorem pay_apply (x0 : Vec Ideal S5000x1 .f32) (x1 : Vec Ideal S5000x128 .f32) (x2 : Vec Ideal S1x128 .f32) (x3 : Vec Ideal S128x128 .f32)
    (p : Fin 5000) (q : Fin 128) :
    k1_pay1 (F := Ideal) x0 x1 x2 x3 (ix2 p q)
      = (∑ k : Fin 128, max (x1 (ix2 p k) * x0 (ix2 p (0 : Fin 1)) + x2 (ix2 (0 : Fin 1) k)) 0 * x3 (ix2 k q)) * x0 (ix2 p (0 : Fin 1)) := by
  unfold k1_pay1
  show FloatOps.matmul dot_S5000x128_S128x128_S5000x128_1_0_0_1_n_n none _ _ (constant (F := Ideal) S5000x128 .f32 0x00000000#32) (ix2 p q)
      * broadcastTo S5000x128 (shapeCast S5000x1 x0 _) _ (ix2 p q) = _
  refine (congrArg₂ (· * ·) (dense_apply _ _ p q) ((congrArg (fun v => broadcastTo S5000x128 v _ (ix2 p q)) (shapeCast_self x0 _)).trans (broadcastTo_a1_ab_apply x0 _ p q))).trans ?_
  refine congrArg (· * x0 (ix2 p (0 : Fin 1))) (Finset.sum_congr rfl fun k _ => ?_)
  exact congrArg (· * x3 (ix2 k q)) (epilogue_apply x0 x1 x2 _ _ _ _ _ p k)

variable (V : (c : Dev nD) → (b : Ref sig .tc) → Buf (Elt Ideal) ((c : Thread nD τ).loc b))

/-! ## From blocks to the array -/

theorem hz : (![0, 0] : Fin 2 → Nat) = fun _ => 0 := funext fun a => by fin_cases a <;> rfl

/-- The windows' index maps, decided over the ten grid points: the aggregate's and the factor column's row blocks move with the
    output's, the bias row and the weights stay at block zero, and the output's row block index is below ten. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block of the output is some grid point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-! ## Each input block read where the output's rectangle says: a block's coordinate is its index times its size plus the
    coordinate inside it -/

/-- The aggregate's block at point `t`, at `(p, k)`: row `r` of the array, where `r` is the output block's row `p`. -/
theorem blk0_apply (c : Dev nD) (t : Fin cfg1.N) (p : Fin 5000) (k : Fin 128) (r : Fin 50000)
    (hr : r.val = win1_4.index t (0 : Fin 2) * 5000 + p.val) :
    (iblk1 V c 0 t : Vec Ideal S5000x128 .f32) (ix2 p k) = (V c main_v31 : S50000x128.Idx → EReal) (ix2 r k) := by
  obtain ⟨e0, e1, -⟩ := idx_facts t
  show (V c main_v31 : S50000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The factor column's block at point `t`, at row `p`: row `r` of the column. -/
theorem blk1_apply (c : Dev nD) (t : Fin cfg1.N) (p : Fin 5000) (r : Fin 50000)
    (hr : r.val = win1_4.index t (0 : Fin 2) * 5000 + p.val) :
    (iblk1 V c 1 t : Vec Ideal S5000x1 .f32) (ix2 p (0 : Fin 1)) = (V c main_v16 : S50000x1.Idx → EReal) (ix2 r (0 : Fin 1)) := by
  obtain ⟨-, -, e2, e3, -⟩ := idx_facts t
  show (V c main_v16 : S50000x1.Idx → EReal) (((cfg1.win 1).blk t).view.emb (ix2 p (0 : Fin 1))) = _
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias row's block is the whole row at every point. -/
theorem blk2_apply (c : Dev nD) (t : Fin cfg1.N) (k : Fin 128) :
    (iblk1 V c 2 t : Vec Ideal S1x128 .f32) (ix2 (0 : Fin 1) k) = (V c main_v32 : S1x128.Idx → EReal) (ix2 (0 : Fin 1) k) := by
  obtain ⟨-, -, -, -, e4, e5, -⟩ := idx_facts t
  show (V c main_v32 : S1x128.Idx → EReal) (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The weights' block is the whole matrix at every point. -/
theorem blk3_apply (c : Dev nD) (t : Fin cfg1.N) (k q : Fin 128) (q' : Fin 128) (hq : q'.val = q.val) :
    (iblk1 V c 3 t : Vec Ideal S128x128 .f32) (ix2 k q) = (V c main_arg5 : S128x128.Idx → EReal) (ix2 k q') := by
  obtain ⟨-, -, -, -, -, -, e6, e7, -⟩ := idx_facts t
  show (V c main_arg5 : S128x128.Idx → EReal) (((cfg1.win 3).blk t).view.emb (ix2 k q)) = _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q'.val; omega

/-- WHAT POINT `t` WRITES BACK is block `t` of the second region's function of the arrays as the region finds them. -/
theorem flushed_eq (c : Dev nD) (t : Fin cfg1.N) :
    (dat1 (F := Ideal) V c).flushed 4 t
      = ((cfg1.win 4).blk t).view.read (Elt Ideal) (regionB (V c main_v31) (V c main_v16) (V c main_v32) (V c main_arg5)) := by
  show (cfg1.win 4).cut (grid1.coords t) ((dat1 V c).after 4 t) = _
  rw [after1_4]
  unfold out1_4
  rw [View.canon_unit_zero hz]
  simp only [View.ld_unit_zero (S := S5000x1) hz, View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  obtain ⟨-, -, -, -, -, -, -, -, e8, e9⟩ := idx_facts t
  show k1_pay1 (F := Ideal) (iblk1 V c 1 t) (iblk1 V c 0 t) (iblk1 V c 2 t) (iblk1 V c 3 t) (ix2 p q)
    = regionB (V c main_v31) (V c main_v16) (V c main_v32) (V c main_arg5) (((cfg1.win 4).blk t).view.emb (ix2 p q))
  refine (pay_apply _ _ _ _ p q).trans ?_
  have h0 : ((((cfg1.win 4).blk t).view.emb (ix2 p q)) 0).val = win1_4.index t (0 : Fin 2) * 5000 + p.val := by
    show win1_4.index t (0 : Fin 2) * 5000 + 1 * p.val = _; omega
  have h1 : ((((cfg1.win 4).blk t).view.emb (ix2 p q)) 1).val = q.val := by
    show win1_4.index t (1 : Fin 2) * 128 + 1 * q.val = _; omega
  unfold regionB
  show _ = (∑ k : Fin 128, _) * _
  rw [blk1_apply V c t p _ h0]
  refine congrArg (· * _) (Finset.sum_congr rfl fun k _ => ?_)
  rw [blk0_apply V c t p k _ h0, blk2_apply V c t k, blk3_apply V c t k q _ h1]

/-- An index of the output array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v33).slice (win1_4.rect t)).set ↔ _
  rw [View.set_slice_whole, Rect.mem_set_unit]
  exact Iff.rfl

/-- The ten row blocks tile the 50000 rows: row `r` is in the block of point `r / 5000`. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The second region's output array after its ten grid points: the first layer's epilogue on row `u`, that row against the second
    weight matrix, scaled by the node's factor. -/
theorem arr (c : Dev nD) :
    (dat1 (F := Ideal) V c).arrAt 4 cfg1.N = regionB (V c main_v31) (V c main_v16) (V c main_v32) (V c main_arg5) :=
  (dat1 (F := Ideal) V c).arrAt_eq_of_cover 4 (regionB (V c main_v31) (V c main_v16) (V c main_v32) (V c main_arg5))
    (fun t _ => flushed_eq V c t) covered

end Cert.KernelIdeal.Region1

end
-- ==== Proof.KRegion2.lean ====
/-
  The third region at the ideal instance, from blocks to the array. Grid point `t` of ten stages rows 5000·t … 5000·t + 4999 of
  the aggregate and of the per-node factor column, the whole bias row, and writes back the same rows of the output: elementwise
  scale, bias, clip at zero. The ten blocks tile the 50000 rows.
-/
import proofs.«124985_j584115552914_2_alg».proof.Proof.Gen.KernelIdeal.Frame
import proofs.«124985_j584115552914_2_alg».proof.Proof.GcnStage
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Cert.Proof.Gcn (regionA regionB regionC)
open scoped BigOperators

variable (V : (c : Dev nD) → (b : Ref sig .tc) → Buf (Elt Ideal) ((c : Thread nD τ).loc b))

/-- The block offsets of a staging buffer are all zero. -/
theorem zeroOffsets : (![0, 0] : Fin 2 → Nat) = fun _ => 0 := funext fun a => by fin_cases a <;> rfl

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE BODY AT ONE ELEMENT: row `p`, channel `q` of the block written is the aggregate's element times the row's factor,
    plus the bias of the channel, clipped at zero. -/
theorem pay_apply (x0 : Vec Ideal S5000x128 .f32) (x1 : Vec Ideal S5000x1 .f32) (x2 : Vec Ideal S1x128 .f32)
    (p : Fin 5000) (q : Fin 128) :
    k2_pay1 (F := Ideal) x0 x1 x2 (ix2 p q) = max (x0 (ix2 p q) * x1 (ix2 p (0 : Fin 1)) + x2 (ix2 (0 : Fin 1) q)) 0 := by
  unfold k2_pay1
  show max (shapeCast S5000x128 x0 shapeCasts_S5000x128_S5000x128 (ix2 p q)
      * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q))
      (Ideal.ofBits .f32 0x00000000#32) = _
  rw [shapeCast_self, shapeCast_self, shapeCast_self, broadcastTo_a1_ab_apply, broadcastTo_1b_ab_apply, Ideal.ofBits_zero_f32]

/-- The block indices over the ten grid points: the aggregate's, the factor column's and the output's blocks are block `t`
    of the rows; the bias row's block is the whole row. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of block `t` is row `5000 t + p` of the array. -/
theorem row_lt (t : Fin cfg2.N) (p : Fin 5000) : t.val * 5000 + p.val < 50000 := by
  have hN : grid2.N = 10 := N_2
  have ht : t.val < grid2.N := t.isLt
  have hp := p.isLt
  omega

/-- The aggregate's block at point `t`, read at `(p, q)`. -/
theorem blkAgg_apply (c : Dev nD) (t : Fin cfg2.N) (p : Fin 5000) (q : Fin 128) :
    (iblk2 V c 0 t : Vec Ideal S5000x128 .f32) (ix2 p q)
      = (V c main_v47 : S50000x128.Idx → EReal) (ix2 ⟨t.val * 5000 + p.val, row_lt t p⟩ q) := by
  obtain ⟨e0, e1, -⟩ := idx_facts t
  unfold iblk2
  rw [View.read_apply]
  show V c main_v47 _ = V c main_v47 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

/-- The factor column's block at point `t`, read at row `p`. -/
theorem blkFac_apply (c : Dev nD) (t : Fin cfg2.N) (p : Fin 5000) :
    (iblk2 V c 1 t : Vec Ideal S5000x1 .f32) (ix2 p (0 : Fin 1))
      = (V c main_v16 : S50000x1.Idx → EReal) (ix2 ⟨t.val * 5000 + p.val, row_lt t p⟩ (0 : Fin 1)) := by
  obtain ⟨-, -, e0, e1, -⟩ := idx_facts t
  unfold iblk2
  rw [View.read_apply]
  show V c main_v16 _ = V c main_v16 _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

/-- The bias row's block at point `t` is the whole row. -/
theorem blkBias_apply (c : Dev nD) (t : Fin cfg2.N) (q : Fin 128) :
    (iblk2 V c 2 t : Vec Ideal S1x128 .f32) (ix2 (0 : Fin 1) q)
      = (V c main_v48 : S1x128.Idx → EReal) (ix2 (0 : Fin 1) q) := by
  obtain ⟨-, -, -, -, e0, e1, -⟩ := idx_facts t
  unfold iblk2
  rw [View.read_apply]
  show V c main_v48 _ = V c main_v48 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- WHAT POINT `t` WRITES BACK is block `t` of the region's function of the three arrays. -/
theorem flushed_eq (c : Dev nD) (t : Fin cfg2.N) :
    (dat2 (F := Ideal) V c).flushed 3 t
      = ((cfg2.win 3).blk t).view.read (Elt Ideal) (regionC (V c main_v47) (V c main_v16) (V c main_v48)) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S5000x1) zeroOffsets,
    View.ld_unit_zero (S := S1x128) zeroOffsets]
  obtain ⟨-, -, -, -, -, -, e0, e1⟩ := idx_facts t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = regionC (V c main_v47) (V c main_v16) (V c main_v48) (((cfg2.win 3).blk t).view.emb (ix2 p q))
  have hemb : ((cfg2.win 3).blk t).view.emb (ix2 p q) = (ix2 ⟨t.val * 5000 + p.val, row_lt t p⟩ q : S50000x128.Idx) := by
    funext a
    apply Fin.ext
    match a with
    | ⟨0, _⟩ => show win2_3.index t (0 : Fin 2) * 5000 + 1 * p.val = t.val * 5000 + p.val; rw [e0]; omega
    | ⟨1, _⟩ => show win2_3.index t (1 : Fin 2) * 128 + 1 * q.val = q.val; rw [e1]; omega
  rw [hemb, pay_apply (iblk2 V c 0 t) (iblk2 V c 1 t) (iblk2 V c 2 t) p q, blkAgg_apply V c t p q, blkFac_apply V c t p,
    blkBias_apply V c t q]
  rfl

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v49).slice (win2_3.rect t)).set ↔ _
  rw [View.set_slice_whole, Rect.mem_set_unit]
  exact Iff.rfl

/-- THE TEN BLOCKS TILE THE ROWS: row `r` is in the block of point `r / 5000`. -/
theorem cover (i : S50000x128.Idx) :
    ∃ t : Fin cfg2.N, (cfg2.win 3).flush t = true ∧ i ∈ ((cfg2.win 3).blk t).view.set := by
  have hN : grid2.N = 10 := N_2
  have hi0 : (i 0).val < 50000 := (i 0).isLt
  have hi1 : (i 1).val < 128 := (i 1).isLt
  refine ⟨⟨(i 0).val / 5000, by show (i 0).val / 5000 < grid2.N; omega⟩, flush2_3 _, ?_⟩
  rw [mem_blk]
  obtain ⟨-, -, -, -, -, -, e0, e1⟩ := idx_facts ⟨(i 0).val / 5000, by show (i 0).val / 5000 < grid2.N; omega⟩
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e1]; omega

/-- The third region's output array after its ten grid points: the aggregate scaled by the node's factor, plus the bias row, clipped at zero. -/
theorem arr (c : Dev nD) :
    (dat2 (F := Ideal) V c).arrAt 3 cfg2.N = regionC (V c main_v47) (V c main_v16) (V c main_v48) :=
  (dat2 (F := Ideal) V c).arrAt_eq_of_cover 3 (regionC (V c main_v47) (V c main_v16) (V c main_v48))
    (fun t _ => flushed_eq V c t) cover

end Cert.KernelIdeal.Region2

end
-- ==== Proof.GcnCompose.lean ====
/-
  The three regions and the two aggregation stages between them compose to the node-space form.

  Hypotheses, all at an index: the per-node factor column and the two bias rows are the vectors they were reshaped
  from; the first aggregate is the stage over the first region's rows, the second aggregate the stage over the second
  region's rows. Conclusion: the third region's function of the second aggregate is `kernelSpec` of the arguments.
-/
import proofs.«124985_j584115552914_2_alg».proof.Proof.GcnStage

noncomputable section

namespace Cert.Proof.Gcn

open Idealize.ShloMosaic Idealize.ShloMosaic.ValueIdx
open scoped BigOperators

theorem kernel_compose (ev : HostEv) (x : SN.Idx → EReal) (ei : IVec SI2 32) (ew : SIv.Idx → EReal) (W1 : SW.Idx → EReal)
    (b1 : SC.Idx → EReal) (W2 : SW.Idx → EReal) (b2 : SC.Idx → EReal)
    (dcol : SN1.Idx → EReal) (hdcol : ∀ u : Fin 50000, dcol (ix2 u (0 : Fin 1)) = dinv ev ei ew (ix1 u))
    (b1r b2r : SB.Idx → EReal) (hb1 : ∀ j : Fin 128, b1r (ix2 (0 : Fin 1) j) = b1 (ix1 j))
    (hb2 : ∀ j : Fin 128, b2r (ix2 (0 : Fin 1) j) = b2 (ix1 j))
    (A1 A2 : SN.Idx → EReal)
    (hA1 : ∀ (v : Fin 50000) (j : Fin 128), A1 (ix2 v j) = 0 + ∑ e : Fin 850000,
      if hitRow (rawCol (dv ev ei)) e v then regionA x W1 dcol (ix2 (rowOf (wrapCol (sv ev ei)) e) j) * w8 ev ew (ix1 e) else 0)
    (hA2 : ∀ (v : Fin 50000) (j : Fin 128), A2 (ix2 v j) = 0 + ∑ e : Fin 850000,
      if hitRow (rawCol (dv ev ei)) e v then regionB A1 dcol b1r W2 (ix2 (rowOf (wrapCol (sv ev ei)) e) j) * w8 ev ew (ix1 e) else 0) :
    regionC A2 dcol b2r = kernelSpec ev x ei ew W1 b1 W2 b2 := by
  -- the first region's rows are the dense product's, scaled
  have hRA : ∀ (u : Fin 50000) (j : Fin 128), regionA x W1 dcol (ix2 u j)
      = scaleRows (fun v => dinv ev ei ew (ix1 v)) (dense (fun u k => x (ix2 u k)) (fun k j => W1 (ix2 k j))) u j := by
    intro u j
    show (∑ k : Fin 128, x (ix2 u k) * W1 (ix2 k j)) * dcol (ix2 u (0 : Fin 1)) = _
    rw [hdcol]; rfl
  -- so the first aggregate is the node-space aggregation of them
  have hA1f : (fun v j => A1 (ix2 v j)) = aggK (rowOf (wrapCol (sv ev ei))) (hitRow (rawCol (dv ev ei))) (fun e => w8 ev ew (ix1 e))
      (scaleRows (fun v => dinv ev ei ew (ix1 v)) (dense (fun u k => x (ix2 u k)) (fun k j => W1 (ix2 k j)))) := by
    funext v j
    rw [hA1]
    unfold aggK
    refine congrArg (fun t => 0 + t) (Finset.sum_congr rfl fun e _ => ?_)
    rw [hRA]
  -- the second region's rows: the first epilogue, the second dense product, scaled
  have hRB : ∀ (u : Fin 50000) (j : Fin 128), regionB A1 dcol b1r W2 (ix2 u j)
      = scaleRows (fun v => dinv ev ei ew (ix1 v)) (dense (epiK (fun v => dinv ev ei ew (ix1 v)) (fun v k => A1 (ix2 v k))
          (fun j => b1 (ix1 j))) (fun k j => W2 (ix2 k j))) u j := by
    intro u j
    show (∑ k : Fin 128, max (A1 (ix2 u k) * dcol (ix2 u (0 : Fin 1)) + b1r (ix2 (0 : Fin 1) k)) 0 * W2 (ix2 k j))
        * dcol (ix2 u (0 : Fin 1)) = _
    rw [hdcol]; simp only [hb1]; rfl
  have hA2f : (fun v j => A2 (ix2 v j)) = aggK (rowOf (wrapCol (sv ev ei))) (hitRow (rawCol (dv ev ei))) (fun e => w8 ev ew (ix1 e))
      (scaleRows (fun v => dinv ev ei ew (ix1 v)) (dense (epiK (fun v => dinv ev ei ew (ix1 v)) (fun v k => A1 (ix2 v k))
          (fun j => b1 (ix1 j))) (fun k j => W2 (ix2 k j)))) := by
    funext v j
    rw [hA2]
    unfold aggK
    refine congrArg (fun t => 0 + t) (Finset.sum_congr rfl fun e _ => ?_)
    rw [hRB]
  funext i
  obtain ⟨v, j, rfl⟩ : ∃ (v : Fin 50000) (j : Fin 128), i = ix2 v j := ⟨i 0, i 1, eq_ix2 i⟩
  show max (A2 (ix2 v j) * dcol (ix2 v (0 : Fin 1)) + b2r (ix2 (0 : Fin 1) j)) 0 = _
  rw [hdcol, hb2]
  unfold kernelSpec kernelOut
  rw [← hA1f, ← hA2f]
  rfl

end Cert.Proof.Gcn

end
-- ==== Proof.LibColumn.lean ====
/-
  A column of per-row statistics, in the two layout forms a `keepdims` reduction leaves it in.

  A reduction along the last axis of an `[a, b]` array gives an `[a]` vector; kept as a column it is re-laid as `[a, 1]`, and to
  combine it with the array again it is broadcast back to `[a, b]`. Read at an index: the column at `(i, u)` is the vector at
  `i` whatever the unit coordinate, and the broadcast column at `(p, c)` is the column at `(p, 0)`. Generic in the extents;
  stated at indices built from literal coordinates (`ix1`, `ix2`), the form in which they rewrite.
-/
import Idealize.ShloMosaic.Lib.Pipeline.Value
import Idealize.ShloMosaic.Lib.ValueIdx

namespace Cert.Lib.Column

open Idealize.ShloMosaic Idealize.ShloMosaic.ValueIdx

variable {α : Type}

/-- An `[a]` vector re-laid as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.KValue.lean ====
/-
  The idealized kernel program's result array is the node-space form of the seven arguments.

  The buffer contents at each segment boundary of @main are a fold from the launch memory: a stretch of host operations
  rewrites the buffers it writes and keeps the others, a region rewrites its output array and keeps the others. Walking
  that fold back from the last boundary: the result is the third region's function of the second aggregate, the
  per-node factor column and the second bias row; the second aggregate is the aggregation stage over the second region's
  rows; those are the second region's function of the first aggregate, the factor column, the first bias row and the
  second weights; the first aggregate is the stage over the first region's rows, the dense product scaled. The edge
  lists, the weights and the factor are the first stretch's, unchanged since. `kernel_compose` puts the pieces together.
-/
import proofs.«124985_j584115552914_2_alg».proof.Proof.KHost
import proofs.«124985_j584115552914_2_alg».proof.Proof.KRegion0
import proofs.«124985_j584115552914_2_alg».proof.Proof.KRegion1
import proofs.«124985_j584115552914_2_alg».proof.Proof.KRegion2
import proofs.«124985_j584115552914_2_alg».proof.Proof.GcnCompose
import proofs.«124985_j584115552914_2_alg».proof.Proof.LibColumn
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.StableHlo
open Cert.Proof
open Cert.Proof.Gcn (regionA regionB regionC)
open scoped BigOperators

/-! ## Each stretch and each region, from what its inputs hold -/

section Steps
variable (X : Valuation τ sig (Elt Ideal))

theorem sel_of {c13 : S50000.Idx → BitVec 1} {c14 : S50000.Idx → EReal} {c2 : S_.Idx → EReal}
    (h13 : (X (Proc.devRef .tc main_v13) : S50000.Idx → BitVec 1) = c13) (h14 : (X (Proc.devRef .tc main_v14) : S50000.Idx → EReal) = c14)
    (h2 : (X (Proc.devRef .tc main_cst_2) : S_.Idx → EReal) = c2) :
    (StableHlo.after (hostOps0_1 (F := Ideal)) X (Proc.devRef .tc main_v15) : S50000.Idx → EReal)
      = select c13 c14 (broadcastInDim S50000 ![] bcast_S_S50000 (id c2)) := by
  subst h13 h14 h2
  exact KHost.s01_v15 X

theorem col_of {d : S50000.Idx → EReal} (h : (X (Proc.devRef .tc main_v15) : S50000.Idx → EReal) = d) :
    (StableHlo.after (hostOps0_2 (F := Ideal)) X (Proc.devRef .tc main_v16) : S50000x1.Idx → EReal)
      = shapeCast S50000x1 d shapeCasts_S50000_S50000x1 := by
  subst h
  exact KHost.s02_v16 X

theorem agg1_of {tbl : S50000x128.Idx → EReal} {sv dv : S850000.Idx → BitVec 32} {wv : S850000.Idx → EReal}
    (h17 : (X (Proc.devRef .tc main_v17) : S50000x128.Idx → EReal) = tbl) (h5 : (X (Proc.devRef .tc main_v5) : S850000.Idx → BitVec 32) = sv)
    (h6 : (X (Proc.devRef .tc main_v6) : S850000.Idx → BitVec 32) = dv) (h8 : (X (Proc.devRef .tc main_v8) : S850000.Idx → EReal) = wv) :
    (StableHlo.after (hostOps1 (F := Ideal)) X (Proc.devRef .tc main_v31) : S50000x128.Idx → EReal) = KHost.stageOps tbl sv dv wv := by
  subst h17 h5 h6 h8
  exact KHost.s1_v31 X

theorem row1_of {b : S128.Idx → EReal} (h : (X (Proc.devRef .tc main_arg4) : S128.Idx → EReal) = b) :
    (StableHlo.after (hostOps1 (F := Ideal)) X (Proc.devRef .tc main_v32) : S1x128.Idx → EReal) = shapeCast S1x128 b shapeCasts_S128_S1x128 := by
  subst h
  exact KHost.s1_v32 X

theorem agg2_of {tbl : S50000x128.Idx → EReal} {sv dv : S850000.Idx → BitVec 32} {wv : S850000.Idx → EReal}
    (h33 : (X (Proc.devRef .tc main_v33) : S50000x128.Idx → EReal) = tbl) (h5 : (X (Proc.devRef .tc main_v5) : S850000.Idx → BitVec 32) = sv)
    (h6 : (X (Proc.devRef .tc main_v6) : S850000.Idx → BitVec 32) = dv) (h8 : (X (Proc.devRef .tc main_v8) : S850000.Idx → EReal) = wv) :
    (StableHlo.after (hostOps2 (F := Ideal)) X (Proc.devRef .tc main_v47) : S50000x128.Idx → EReal) = KHost.stageOps tbl sv dv wv := by
  subst h33 h5 h6 h8
  exact KHost.s2_v47 X

theorem row2_of {b : S128.Idx → EReal} (h : (X (Proc.devRef .tc main_arg6) : S128.Idx → EReal) = b) :
    (StableHlo.after (hostOps2 (F := Ideal)) X (Proc.devRef .tc main_v48) : S1x128.Idx → EReal) = shapeCast S1x128 b shapeCasts_S128_S1x128 := by
  subst h
  exact KHost.s2_v48 X

end Steps

variable (m : (ℓ : Loc nD τ sig) → Buf (Elt Ideal) ℓ) (ρ : Dev nD → PrngReg) (c : Dev nD)

theorem reg0_of {x : S50000x128.Idx → EReal} {Wt : S128x128.Idx → EReal} {d : S50000x1.Idx → EReal}
    (h0 : ((W3 (F := Ideal) m ρ c) (Proc.devRef .tc main_arg0) : S50000x128.Idx → EReal) = x) (h3 : ((W3 (F := Ideal) m ρ c) (Proc.devRef .tc main_arg3) : S128x128.Idx → EReal) = Wt)
    (h16 : ((W3 (F := Ideal) m ρ c) (Proc.devRef .tc main_v16) : S50000x1.Idx → EReal) = d) :
    ((W4 (F := Ideal) m ρ c) (Proc.devRef .tc main_v17) : S50000x128.Idx → EReal) = regionA x Wt d := by
  subst h0 h3 h16
  exact (W4_arr m ρ c 3).trans (Region0.arr (V3 m ρ) c)

theorem reg1_of {a : S50000x128.Idx → EReal} {d : S50000x1.Idx → EReal} {b : S1x128.Idx → EReal} {Wt : S128x128.Idx → EReal}
    (h31 : ((W5 (F := Ideal) m ρ c) (Proc.devRef .tc main_v31) : S50000x128.Idx → EReal) = a) (h16 : ((W5 (F := Ideal) m ρ c) (Proc.devRef .tc main_v16) : S50000x1.Idx → EReal) = d)
    (h32 : ((W5 (F := Ideal) m ρ c) (Proc.devRef .tc main_v32) : S1x128.Idx → EReal) = b) (h5 : ((W5 (F := Ideal) m ρ c) (Proc.devRef .tc main_arg5) : S128x128.Idx → EReal) = Wt) :
    ((W6 (F := Ideal) m ρ c) (Proc.devRef .tc main_v33) : S50000x128.Idx → EReal) = regionB a d b Wt := by
  subst h31 h16 h32 h5
  exact (W6_arr m ρ c 4).trans (Region1.arr (V5 m ρ) c)

theorem reg2_of {a : S50000x128.Idx → EReal} {d : S50000x1.Idx → EReal} {b : S1x128.Idx → EReal}
    (h47 : ((W7 (F := Ideal) m ρ c) (Proc.devRef .tc main_v47) : S50000x128.Idx → EReal) = a) (h16 : ((W7 (F := Ideal) m ρ c) (Proc.devRef .tc main_v16) : S50000x1.Idx → EReal) = d)
    (h48 : ((W7 (F := Ideal) m ρ c) (Proc.devRef .tc main_v48) : S1x128.Idx → EReal) = b) :
    ((W8 (F := Ideal) m ρ c) (Proc.devRef .tc main_v49) : S50000x128.Idx → EReal) = regionC a d b := by
  subst h47 h16 h48
  exact (W8_arr m ρ c 3).trans (Region2.arr (V7 m ρ) c)

/-! ## The fold walked back, boundary by boundary -/

-- at the first region's entry
theorem w3_arg0 : ((W3 (F := Ideal) m ρ c) (Proc.devRef .tc main_arg0) : S50000x128.Idx → EReal) = (m ((c.tc : Thread nD τ).loc main_arg0)) :=
  (KHost.s02_keep_arg0 (W2 (F := Ideal) m ρ c)).trans ((KHost.s01_keep_arg0 (W1 (F := Ideal) m ρ c)).trans (KHost.s0_keep_arg0 (W0 (F := Ideal) m ρ c)))
theorem w3_arg3 : ((W3 (F := Ideal) m ρ c) (Proc.devRef .tc main_arg3) : S128x128.Idx → EReal) = (m ((c.tc : Thread nD τ).loc main_arg3)) :=
  (KHost.s02_keep_arg3 (W2 (F := Ideal) m ρ c)).trans ((KHost.s01_keep_arg3 (W1 (F := Ideal) m ρ c)).trans (KHost.s0_keep_arg3 (W0 (F := Ideal) m ρ c)))
theorem w3_arg4 : ((W3 (F := Ideal) m ρ c) (Proc.devRef .tc main_arg4) : S128.Idx → EReal) = (m ((c.tc : Thread nD τ).loc main_arg4)) :=
  (KHost.s02_keep_arg4 (W2 (F := Ideal) m ρ c)).trans ((KHost.s01_keep_arg4 (W1 (F := Ideal) m ρ c)).trans (KHost.s0_keep_arg4 (W0 (F := Ideal) m ρ c)))
theorem w3_arg5 : ((W3 (F := Ideal) m ρ c) (Proc.devRef .tc main_arg5) : S128x128.Idx → EReal) = (m ((c.tc : Thread nD τ).loc main_arg5)) :=
  (KHost.s02_keep_arg5 (W2 (F := Ideal) m ρ c)).trans ((KHost.s01_keep_arg5 (W1 (F := Ideal) m ρ c)).trans (KHost.s0_keep_arg5 (W0 (F := Ideal) m ρ c)))
theorem w3_arg6 : ((W3 (F := Ideal) m ρ c) (Proc.devRef .tc main_arg6) : S128.Idx → EReal) = (m ((c.tc : Thread nD τ).loc main_arg6)) :=
  (KHost.s02_keep_arg6 (W2 (F := Ideal) m ρ c)).trans ((KHost.s01_keep_arg6 (W1 (F := Ideal) m ρ c)).trans (KHost.s0_keep_arg6 (W0 (F := Ideal) m ρ c)))
theorem w3_v5 : ((W3 (F := Ideal) m ρ c) (Proc.devRef .tc main_v5) : S850000.Idx → BitVec 32) = (Gcn.sv Cert.KernelIdeal.hostEv (m ((c.tc : Thread nD τ).loc main_arg1))) :=
  (KHost.s02_keep_v5 (W2 (F := Ideal) m ρ c)).trans ((KHost.s01_keep_v5 (W1 (F := Ideal) m ρ c)).trans (KHost.s0_v5 (W0 (F := Ideal) m ρ c)))
theorem w3_v6 : ((W3 (F := Ideal) m ρ c) (Proc.devRef .tc main_v6) : S850000.Idx → BitVec 32) = (Gcn.dv Cert.KernelIdeal.hostEv (m ((c.tc : Thread nD τ).loc main_arg1))) :=
  (KHost.s02_keep_v6 (W2 (F := Ideal) m ρ c)).trans ((KHost.s01_keep_v6 (W1 (F := Ideal) m ρ c)).trans (KHost.s0_v6 (W0 (F := Ideal) m ρ c)))
theorem w3_v8 : ((W3 (F := Ideal) m ρ c) (Proc.devRef .tc main_v8) : S850000.Idx → EReal) = (Gcn.w8 Cert.KernelIdeal.hostEv (m ((c.tc : Thread nD τ).loc main_arg2))) :=
  (KHost.s02_keep_v8 (W2 (F := Ideal) m ρ c)).trans ((KHost.s01_keep_v8 (W1 (F := Ideal) m ρ c)).trans (KHost.s0_v8 (W0 (F := Ideal) m ρ c)))
theorem w2_v15 : ((W2 (F := Ideal) m ρ c) (Proc.devRef .tc main_v15) : S50000.Idx → EReal) = (Gcn.dinv Cert.KernelIdeal.hostEv (m ((c.tc : Thread nD τ).loc main_arg1)) (m ((c.tc : Thread nD τ).loc main_arg2))) :=
  (sel_of (W1 (F := Ideal) m ρ c) (KHost.s0_v13 (W0 (F := Ideal) m ρ c)) (KHost.s0_v14 (W0 (F := Ideal) m ρ c)) (KHost.s0_cst2 (W0 (F := Ideal) m ρ c))).trans rfl
theorem w3_v16 : ((W3 (F := Ideal) m ρ c) (Proc.devRef .tc main_v16) : S50000x1.Idx → EReal) = (shapeCast S50000x1 (Gcn.dinv Cert.KernelIdeal.hostEv (m ((c.tc : Thread nD τ).loc main_arg1)) (m ((c.tc : Thread nD τ).loc main_arg2))) shapeCasts_S50000_S50000x1) :=
  col_of (W2 (F := Ideal) m ρ c) (w2_v15 m ρ c)
-- at the first region's exit
theorem w4_v5 : ((W4 (F := Ideal) m ρ c) (Proc.devRef .tc main_v5) : S850000.Idx → BitVec 32) = (Gcn.sv Cert.KernelIdeal.hostEv (m ((c.tc : Thread nD τ).loc main_arg1))) :=
  (W4_of_ne m ρ c main_v5 (by decide)).trans (w3_v5 m ρ c)
theorem w4_v6 : ((W4 (F := Ideal) m ρ c) (Proc.devRef .tc main_v6) : S850000.Idx → BitVec 32) = (Gcn.dv Cert.KernelIdeal.hostEv (m ((c.tc : Thread nD τ).loc main_arg1))) :=
  (W4_of_ne m ρ c main_v6 (by decide)).trans (w3_v6 m ρ c)
theorem w4_v8 : ((W4 (F := Ideal) m ρ c) (Proc.devRef .tc main_v8) : S850000.Idx → EReal) = (Gcn.w8 Cert.KernelIdeal.hostEv (m ((c.tc : Thread nD τ).loc main_arg2))) :=
  (W4_of_ne m ρ c main_v8 (by decide)).trans (w3_v8 m ρ c)
theorem w4_v16 : ((W4 (F := Ideal) m ρ c) (Proc.devRef .tc main_v16) : S50000x1.Idx → EReal) = (shapeCast S50000x1 (Gcn.dinv Cert.KernelIdeal.hostEv (m ((c.tc : Thread nD τ).loc main_arg1)) (m ((c.tc : Thread nD τ).loc main_arg2))) shapeCasts_S50000_S50000x1) :=
  ((W4_arr m ρ c 2).trans (((dat0 (V3 m ρ) c).arrAt_in 2 rfl _).trans (A_eq0 (V3 m ρ) c 2))).trans (w3_v16 m ρ c)
theorem w4_arg4 : ((W4 (F := Ideal) m ρ c) (Proc.devRef .tc main_arg4) : S128.Idx → EReal) = (m ((c.tc : Thread nD τ).loc main_arg4)) :=
  (W4_of_ne m ρ c main_arg4 (by decide)).trans (w3_arg4 m ρ c)
theorem w4_arg5 : ((W4 (F := Ideal) m ρ c) (Proc.devRef .tc main_arg5) : S128x128.Idx → EReal) = (m ((c.tc : Thread nD τ).loc main_arg5)) :=
  (W4_of_ne m ρ c main_arg5 (by decide)).trans (w3_arg5 m ρ c)
theorem w4_arg6 : ((W4 (F := Ideal) m ρ c) (Proc.devRef .tc main_arg6) : S128.Idx → EReal) = (m ((c.tc : Thread nD τ).loc main_arg6)) :=
  (W4_of_ne m ρ c main_arg6 (by decide)).trans (w3_arg6 m ρ c)
theorem w4_v17 : ((W4 (F := Ideal) m ρ c) (Proc.devRef .tc main_v17) : S50000x128.Idx → EReal) = (regionA (m ((c.tc : Thread nD τ).loc main_arg0)) (m ((c.tc : Thread nD τ).loc main_arg3)) (shapeCast S50000x1 (Gcn.dinv Cert.KernelIdeal.hostEv (m ((c.tc : Thread nD τ).loc main_arg1)) (m ((c.tc : Thread nD τ).loc main_arg2))) shapeCasts_S50000_S50000x1)) :=
  reg0_of m ρ c (w3_arg0 m ρ c) (w3_arg3 m ρ c) (w3_v16 m ρ c)
-- at the second region's entry
theorem w5_v5 : ((W5 (F := Ideal) m ρ c) (Proc.devRef .tc main_v5) : S850000.Idx → BitVec 32) = (Gcn.sv Cert.KernelIdeal.hostEv (m ((c.tc : Thread nD τ).loc main_arg1))) :=
  (KHost.s1_keep_v5 (W4 (F := Ideal) m ρ c)).trans (w4_v5 m ρ c)
theorem w5_v6 : ((W5 (F := Ideal) m ρ c) (Proc.devRef .tc main_v6) : S850000.Idx → BitVec 32) = (Gcn.dv Cert.KernelIdeal.hostEv (m ((c.tc : Thread nD τ).loc main_arg1))) :=
  (KHost.s1_keep_v6 (W4 (F := Ideal) m ρ c)).trans (w4_v6 m ρ c)
theorem w5_v8 : ((W5 (F := Ideal) m ρ c) (Proc.devRef .tc main_v8) : S850000.Idx → EReal) = (Gcn.w8 Cert.KernelIdeal.hostEv (m ((c.tc : Thread nD τ).loc main_arg2))) :=
  (KHost.s1_keep_v8 (W4 (F := Ideal) m ρ c)).trans (w4_v8 m ρ c)
theorem w5_v16 : ((W5 (F := Ideal) m ρ c) (Proc.devRef .tc main_v16) : S50000x1.Idx → EReal) = (shapeCast S50000x1 (Gcn.dinv Cert.KernelIdeal.hostEv (m ((c.tc : Thread nD τ).loc main_arg1)) (m ((c.tc : Thread nD τ).loc main_arg2))) shapeCasts_S50000_S50000x1) :=
  (KHost.s1_keep_v16 (W4 (F := Ideal) m ρ c)).trans (w4_v16 m ρ c)
theorem w5_arg5 : ((W5 (F := Ideal) m ρ c) (Proc.devRef .tc main_arg5) : S128x128.Idx → EReal) = (m ((c.tc : Thread nD τ).loc main_arg5)) :=
  (KHost.s1_keep_arg5 (W4 (F := Ideal) m ρ c)).trans (w4_arg5 m ρ c)
theorem w5_arg6 : ((W5 (F := Ideal) m ρ c) (Proc.devRef .tc main_arg6) : S128.Idx → EReal) = (m ((c.tc : Thread nD τ).loc main_arg6)) :=
  (KHost.s1_keep_arg6 (W4 (F := Ideal) m ρ c)).trans (w4_arg6 m ρ c)
theorem w5_v31 : ((W5 (F := Ideal) m ρ c) (Proc.devRef .tc main_v31) : S50000x128.Idx → EReal) = (KHost.stageOps (regionA (m ((c.tc : Thread nD τ).loc main_arg0)) (m ((c.tc : Thread nD τ).loc main_arg3)) (shapeCast S50000x1 (Gcn.dinv Cert.KernelIdeal.hostEv (m ((c.tc : Thread nD τ).loc main_arg1)) (m ((c.tc : Thread nD τ).loc main_arg2))) shapeCasts_S50000_S50000x1)) (Gcn.sv Cert.KernelIdeal.hostEv (m ((c.tc : Thread nD τ).loc main_arg1))) (Gcn.dv Cert.KernelIdeal.hostEv (m ((c.tc : Thread nD τ).loc main_arg1))) (Gcn.w8 Cert.KernelIdeal.hostEv (m ((c.tc : Thread nD τ).loc main_arg2)))) :=
  agg1_of (W4 (F := Ideal) m ρ c) (w4_v17 m ρ c) (w4_v5 m ρ c) (w4_v6 m ρ c) (w4_v8 m ρ c)
theorem w5_v32 : ((W5 (F := Ideal) m ρ c) (Proc.devRef .tc main_v32) : S1x128.Idx → EReal) = (shapeCast S1x128 (m ((c.tc : Thread nD τ).loc main_arg4)) shapeCasts_S128_S1x128) :=
  row1_of (W4 (F := Ideal) m ρ c) (w4_arg4 m ρ c)
-- at the second region's exit
theorem w6_v5 : ((W6 (F := Ideal) m ρ c) (Proc.devRef .tc main_v5) : S850000.Idx → BitVec 32) = (Gcn.sv Cert.KernelIdeal.hostEv (m ((c.tc : Thread nD τ).loc main_arg1))) :=
  (W6_of_ne m ρ c main_v5 (by decide)).trans (w5_v5 m ρ c)
theorem w6_v6 : ((W6 (F := Ideal) m ρ c) (Proc.devRef .tc main_v6) : S850000.Idx → BitVec 32) = (Gcn.dv Cert.KernelIdeal.hostEv (m ((c.tc : Thread nD τ).loc main_arg1))) :=
  (W6_of_ne m ρ c main_v6 (by decide)).trans (w5_v6 m ρ c)
theorem w6_v8 : ((W6 (F := Ideal) m ρ c) (Proc.devRef .tc main_v8) : S850000.Idx → EReal) = (Gcn.w8 Cert.KernelIdeal.hostEv (m ((c.tc : Thread nD τ).loc main_arg2))) :=
  (W6_of_ne m ρ c main_v8 (by decide)).trans (w5_v8 m ρ c)
theorem w6_v16 : ((W6 (F := Ideal) m ρ c) (Proc.devRef .tc main_v16) : S50000x1.Idx → EReal) = (shapeCast S50000x1 (Gcn.dinv Cert.KernelIdeal.hostEv (m ((c.tc : Thread nD τ).loc main_arg1)) (m ((c.tc : Thread nD τ).loc main_arg2))) shapeCasts_S50000_S50000x1) :=
  ((W6_arr m ρ c 1).trans (((dat1 (V5 m ρ) c).arrAt_in 1 rfl _).trans (A_eq1 (V5 m ρ) c 1))).trans (w5_v16 m ρ c)
theorem w6_arg6 : ((W6 (F := Ideal) m ρ c) (Proc.devRef .tc main_arg6) : S128.Idx → EReal) = (m ((c.tc : Thread nD τ).loc main_arg6)) :=
  (W6_of_ne m ρ c main_arg6 (by decide)).trans (w5_arg6 m ρ c)
theorem w6_v33 : ((W6 (F := Ideal) m ρ c) (Proc.devRef .tc main_v33) : S50000x128.Idx → EReal) = (regionB (KHost.stageOps (regionA (m ((c.tc : Thread nD τ).loc main_arg0)) (m ((c.tc : Thread nD τ).loc main_arg3)) (shapeCast S50000x1 (Gcn.dinv Cert.KernelIdeal.hostEv (m ((c.tc : Thread nD τ).loc main_arg1)) (m ((c.tc : Thread nD τ).loc main_arg2))) shapeCasts_S50000_S50000x1)) (Gcn.sv Cert.KernelIdeal.hostEv (m ((c.tc : Thread nD τ).loc main_arg1))) (Gcn.dv Cert.KernelIdeal.hostEv (m ((c.tc : Thread nD τ).loc main_arg1))) (Gcn.w8 Cert.KernelIdeal.hostEv (m ((c.tc : Thread nD τ).loc main_arg2)))) (shapeCast S50000x1 (Gcn.dinv Cert.KernelIdeal.hostEv (m ((c.tc : Thread nD τ).loc main_arg1)) (m ((c.tc : Thread nD τ).loc main_arg2))) shapeCasts_S50000_S50000x1) (shapeCast S1x128 (m ((c.tc : Thread nD τ).loc main_arg4)) shapeCasts_S128_S1x128) (m ((c.tc : Thread nD τ).loc main_arg5))) :=
  reg1_of m ρ c (w5_v31 m ρ c) (w5_v16 m ρ c) (w5_v32 m ρ c) (w5_arg5 m ρ c)
-- at the third region's entry
theorem w7_v16 : ((W7 (F := Ideal) m ρ c) (Proc.devRef .tc main_v16) : S50000x1.Idx → EReal) = (shapeCast S50000x1 (Gcn.dinv Cert.KernelIdeal.hostEv (m ((c.tc : Thread nD τ).loc main_arg1)) (m ((c.tc : Thread nD τ).loc main_arg2))) shapeCasts_S50000_S50000x1) :=
  (KHost.s2_keep_v16 (W6 (F := Ideal) m ρ c)).trans (w6_v16 m ρ c)
theorem w7_v47 : ((W7 (F := Ideal) m ρ c) (Proc.devRef .tc main_v47) : S50000x128.Idx → EReal) = (KHost.stageOps (regionB (KHost.stageOps (regionA (m ((c.tc : Thread nD τ).loc main_arg0)) (m ((c.tc : Thread nD τ).loc main_arg3)) (shapeCast S50000x1 (Gcn.dinv Cert.KernelIdeal.hostEv (m ((c.tc : Thread nD τ).loc main_arg1)) (m ((c.tc : Thread nD τ).loc main_arg2))) shapeCasts_S50000_S50000x1)) (Gcn.sv Cert.KernelIdeal.hostEv (m ((c.tc : Thread nD τ).loc main_arg1))) (Gcn.dv Cert.KernelIdeal.hostEv (m ((c.tc : Thread nD τ).loc main_arg1))) (Gcn.w8 Cert.KernelIdeal.hostEv (m ((c.tc : Thread nD τ).loc main_arg2)))) (shapeCast S50000x1 (Gcn.dinv Cert.KernelIdeal.hostEv (m ((c.tc : Thread nD τ).loc main_arg1)) (m ((c.tc : Thread nD τ).loc main_arg2))) shapeCasts_S50000_S50000x1) (shapeCast S1x128 (m ((c.tc : Thread nD τ).loc main_arg4)) shapeCasts_S128_S1x128) (m ((c.tc : Thread nD τ).loc main_arg5))) (Gcn.sv Cert.KernelIdeal.hostEv (m ((c.tc : Thread nD τ).loc main_arg1))) (Gcn.dv Cert.KernelIdeal.hostEv (m ((c.tc : Thread nD τ).loc main_arg1))) (Gcn.w8 Cert.KernelIdeal.hostEv (m ((c.tc : Thread nD τ).loc main_arg2)))) :=
  agg2_of (W6 (F := Ideal) m ρ c) (w6_v33 m ρ c) (w6_v5 m ρ c) (w6_v6 m ρ c) (w6_v8 m ρ c)
theorem w7_v48 : ((W7 (F := Ideal) m ρ c) (Proc.devRef .tc main_v48) : S1x128.Idx → EReal) = (shapeCast S1x128 (m ((c.tc : Thread nD τ).loc main_arg6)) shapeCasts_S128_S1x128) :=
  row2_of (W6 (F := Ideal) m ρ c) (w6_arg6 m ρ c)

/-- THE RESULT: the last boundary's contents of the result buffer are the node-space form of the arguments. -/
theorem result_eq : ((W8 (F := Ideal) m ρ c) (Proc.devRef .tc main_v49) : S50000x128.Idx → EReal)
    = Gcn.kernelSpec Cert.KernelIdeal.hostEv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (reg2_of m ρ c (w7_v47 m ρ c) (w7_v16 m ρ c) (w7_v48 m ρ c)).trans ?_
  exact Gcn.kernel_compose Cert.KernelIdeal.hostEv _ _ _ _ _ _ _ (shapeCast S50000x1 (Gcn.dinv Cert.KernelIdeal.hostEv (m ((c.tc : Thread nD τ).loc main_arg1)) (m ((c.tc : Thread nD τ).loc main_arg2))) shapeCasts_S50000_S50000x1)
    (fun u => Cert.Lib.Column.shapeCast_a_a1_apply _ shapeCasts_S50000_S50000x1 u (0 : Fin 1))
    (shapeCast S1x128 (m ((c.tc : Thread nD τ).loc main_arg4)) shapeCasts_S128_S1x128) (shapeCast S1x128 (m ((c.tc : Thread nD τ).loc main_arg6)) shapeCasts_S128_S1x128)
    (fun j => shapeCast_a_1a_apply _ shapeCasts_S128_S1x128 (0 : Fin 1) j)
    (fun j => shapeCast_a_1a_apply _ shapeCasts_S128_S1x128 (0 : Fin 1) j)
    (KHost.stageOps (regionA (m ((c.tc : Thread nD τ).loc main_arg0)) (m ((c.tc : Thread nD τ).loc main_arg3)) (shapeCast S50000x1 (Gcn.dinv Cert.KernelIdeal.hostEv (m ((c.tc : Thread nD τ).loc main_arg1)) (m ((c.tc : Thread nD τ).loc main_arg2))) shapeCasts_S50000_S50000x1)) (Gcn.sv Cert.KernelIdeal.hostEv (m ((c.tc : Thread nD τ).loc main_arg1))) (Gcn.dv Cert.KernelIdeal.hostEv (m ((c.tc : Thread nD τ).loc main_arg1))) (Gcn.w8 Cert.KernelIdeal.hostEv (m ((c.tc : Thread nD τ).loc main_arg2)))) (KHost.stageOps (regionB (KHost.stageOps (regionA (m ((c.tc : Thread nD τ).loc main_arg0)) (m ((c.tc : Thread nD τ).loc main_arg3)) (shapeCast S50000x1 (Gcn.dinv Cert.KernelIdeal.hostEv (m ((c.tc : Thread nD τ).loc main_arg1)) (m ((c.tc : Thread nD τ).loc main_arg2))) shapeCasts_S50000_S50000x1)) (Gcn.sv Cert.KernelIdeal.hostEv (m ((c.tc : Thread nD τ).loc main_arg1))) (Gcn.dv Cert.KernelIdeal.hostEv (m ((c.tc : Thread nD τ).loc main_arg1))) (Gcn.w8 Cert.KernelIdeal.hostEv (m ((c.tc : Thread nD τ).loc main_arg2)))) (shapeCast S50000x1 (Gcn.dinv Cert.KernelIdeal.hostEv (m ((c.tc : Thread nD τ).loc main_arg1)) (m ((c.tc : Thread nD τ).loc main_arg2))) shapeCasts_S50000_S50000x1) (shapeCast S1x128 (m ((c.tc : Thread nD τ).loc main_arg4)) shapeCasts_S128_S1x128) (m ((c.tc : Thread nD τ).loc main_arg5))) (Gcn.sv Cert.KernelIdeal.hostEv (m ((c.tc : Thread nD τ).loc main_arg1))) (Gcn.dv Cert.KernelIdeal.hostEv (m ((c.tc : Thread nD τ).loc main_arg1))) (Gcn.w8 Cert.KernelIdeal.hostEv (m ((c.tc : Thread nD τ).loc main_arg2))))
    (fun v j => KHost.stageOps_apply _ _ _ _ v j)
    (fun v j => KHost.stageOps_apply _ _ _ _ v j)

end Cert.KernelIdeal.KValue

end
-- ==== Proof.ReferenceEv.lean ====
/-
  The shared host operations' shape and index-map conditions, as the idealized reference program states them.
-/
import proofs.«124985_j584115552914_2_alg».proof.ReferenceIdeal
import proofs.«124985_j584115552914_2_alg».proof.Proof.GcnStage

noncomputable section

namespace Cert.ReferenceIdeal

open Idealize.ShloMosaic

variable [Facts]
open Facts₀ Facts

/-- The conditions of the host operations both programs share, from this program's stated facts. -/
theorem hostEv : Cert.Proof.Gcn.HostEv :=
  ⟨slices_S2x800000_S1x800000_0_0, slices_S2x800000_S1x800000_1_0, shapeCasts_S1x800000_S800000,
    concatenates_S800000_S50000_S850000_d0, bcast_S_S50000, bcast_S_S850000, bcast_S850000_S850000x1_0,
    scatter_S50000_S850000x1_S850000_n_0_0_1_wf⟩

end Cert.ReferenceIdeal

end
-- ==== Proof.RefValue.lean ====
/-
  The reference's result, read index by index at the ideal instance, is the edge-space form of the two-layer graph convolution
  over the seven argument arrays.
-/
import proofs.«124985_j584115552914_2_alg».proof.Proof.Gen.ReferenceIdeal.Read
import proofs.«124985_j584115552914_2_alg».proof.Proof.GcnStage
import proofs.«124985_j584115552914_2_alg».proof.Proof.ReferenceEv

noncomputable section

namespace Cert.ReferenceIdeal.RefValue

open Cert.ReferenceIdeal Cert.ReferenceIdeal.Gen Idealize.ShloMosaic Idealize.ShloMosaic.TcCoe Idealize.ShloMosaic.ValueIdx Idealize.SL.Sem
open Cert.ReferenceIdeal.Read Cert.Proof Cert.Proof.Gcn
open scoped BigOperators

/-! ## The host terms shared with the kernel program, identified as functions

Edge sources, targets and weights (the given edges followed by one self-loop per node), the weighted in-degree and its
inverse square root are computed once per layer by the reference; both copies are the shared terms. -/

theorem v5_eq (x1 : IVec SI2 32) : val_main_v5 (F := Ideal) x1 = sv hostEv x1 := by
  unfold val_main_v5 val_main_v1 val_main_v0 val_main_v4 sv; rfl
theorem v6_eq (x1 : IVec SI2 32) : val_main_v6 (F := Ideal) x1 = dv hostEv x1 := by
  unfold val_main_v6 val_main_v3 val_main_v2 val_main_v4 dv; rfl
theorem v8_eq (x2 : SIv.Idx → EReal) : val_main_v8 (F := Ideal) x2 = w8 hostEv x2 := by
  unfold val_main_v8 val_main_v7 val_main_cst w8; rfl
theorem v51_eq (x1 : IVec SI2 32) : val_main_v51 (F := Ideal) x1 = sv hostEv x1 := by
  unfold val_main_v51 val_main_v1 val_main_v0 val_main_v50 sv; rfl
theorem v52_eq (x1 : IVec SI2 32) : val_main_v52 (F := Ideal) x1 = dv hostEv x1 := by
  unfold val_main_v52 val_main_v3 val_main_v2 val_main_v50 dv; rfl
theorem v54_eq (x2 : SIv.Idx → EReal) : val_main_v54 (F := Ideal) x2 = w8 hostEv x2 := by
  unfold val_main_v54 val_main_v53 val_main_cst_9 w8; rfl

theorem v11_eq (x1 : IVec SI2 32) (x2 : SIv.Idx → EReal) : val_main_v11 (F := Ideal) x1 x2 = deg hostEv x1 x2 := by
  unfold val_main_v11 val_main_v10 val_main_v9 val_main_cst_0 deg
  rw [v6_eq, v8_eq]; rfl
theorem v15_eq (x1 : IVec SI2 32) (x2 : SIv.Idx → EReal) : val_main_v15 (F := Ideal) x1 x2 = dinv hostEv x1 x2 := by
  unfold val_main_v15 val_main_v13 val_main_v14 val_main_call0_v1 val_main_call0_v0 val_main_cst_2 val_main_v12 val_main_cst_1 dinv
  rw [v11_eq]
theorem v57_eq (x1 : IVec SI2 32) (x2 : SIv.Idx → EReal) : val_main_v57 (F := Ideal) x1 x2 = deg hostEv x1 x2 := by
  unfold val_main_v57 val_main_v56 val_main_v55 val_main_cst_10 deg
  rw [v52_eq, v54_eq]; rfl
theorem v61_eq (x1 : IVec SI2 32) (x2 : SIv.Idx → EReal) : val_main_v61 (F := Ideal) x1 x2 = dinv hostEv x1 x2 := by
  unfold val_main_v61 val_main_v59 val_main_v60 val_main_call2_v1 val_main_call2_v0 val_main_cst_12 val_main_v58 val_main_cst_11 dinv
  rw [v57_eq]

/-! The index columns the gathers are given are the wrapped index vectors (a negative entry shifted by the table's length);
the columns the scatter-adds are given are the index vectors themselves. -/

theorem v21_eq (x1 : IVec SI2 32) : val_main_v21 (F := Ideal) x1 = wrapCol (sv hostEv x1) := by
  unfold val_main_v21 val_main_v20 val_main_v17 val_main_v19 val_main_v16 val_main_v18 val_main_c val_main_c_3
  rw [v5_eq]; exact wrapCol_eq _ _ _
theorem v29_eq (x1 : IVec SI2 32) : val_main_v29 (F := Ideal) x1 = wrapCol (dv hostEv x1) := by
  unfold val_main_v29 val_main_v28 val_main_v25 val_main_v27 val_main_v24 val_main_v26 val_main_c_4 val_main_c_5
  rw [v6_eq]; exact wrapCol_eq _ _ _
theorem v38_eq (x1 : IVec SI2 32) : val_main_v38 (F := Ideal) x1 = wrapCol (sv hostEv x1) := by
  unfold val_main_v38 val_main_v37 val_main_v34 val_main_v36 val_main_v33 val_main_v35 val_main_c_6 val_main_c_7
  rw [v5_eq]; exact wrapCol_eq _ _ _
theorem v67_eq (x1 : IVec SI2 32) : val_main_v67 (F := Ideal) x1 = wrapCol (sv hostEv x1) := by
  unfold val_main_v67 val_main_v66 val_main_v63 val_main_v65 val_main_v62 val_main_v64 val_main_c_13 val_main_c_14
  rw [v51_eq]; exact wrapCol_eq _ _ _
theorem v75_eq (x1 : IVec SI2 32) : val_main_v75 (F := Ideal) x1 = wrapCol (dv hostEv x1) := by
  unfold val_main_v75 val_main_v74 val_main_v71 val_main_v73 val_main_v70 val_main_v72 val_main_c_15 val_main_c_16
  rw [v52_eq]; exact wrapCol_eq _ _ _
theorem v84_eq (x1 : IVec SI2 32) : val_main_v84 (F := Ideal) x1 = wrapCol (sv hostEv x1) := by
  unfold val_main_v84 val_main_v83 val_main_v80 val_main_v82 val_main_v79 val_main_v81 val_main_c_17 val_main_c_18
  rw [v51_eq]; exact wrapCol_eq _ _ _
theorem v44_eq (x1 : IVec SI2 32) : val_main_v44 (F := Ideal) x1 = rawCol (dv hostEv x1) := by
  unfold val_main_v44; rw [v6_eq]; exact rawCol_eq _ _
theorem v90_eq (x1 : IVec SI2 32) : val_main_v90 (F := Ideal) x1 = rawCol (dv hostEv x1) := by
  unfold val_main_v90; rw [v52_eq]; exact rawCol_eq _ _

/-! ## The program's dimension-number records are the row gather's, the row scatter-add's and the element gather's -/

theorem gatherVec_rec : gather_S50000_S850000x1_S850000_n_0_n_n_0_1_1
    = Cert.LibGatherVec.vecGatherDims 50000 850000 gather_S50000_S850000x1_S850000_n_0_n_n_0_1_1_wf := rfl
theorem gatherRows_rec : gather_S50000x128_S850000x1_S850000x128_1_0_n_n_0_1_1128
    = LibGatherRows.rowsDims 50000 128 850000 gather_S50000x128_S850000x1_S850000x128_1_0_n_n_0_1_1128_wf := rfl
theorem scatterRows_rec : scatter_S50000x128_S850000x1_S850000x128_1_0_0_1
    = LibScatterRows.rowsDims 50000 128 850000 scatter_S50000x128_S850000x1_S850000x128_1_0_0_1_wf := rfl

/-! ## An edge's normalisation, a dense product and one whole layer, each read at an index -/

/-- The product `dn[s] * w * dn[d]` at edge `e`: the two element gathers read `dn` at the rows their columns name. -/
theorem norm_apply (dn : SNv.Idx → EReal) (sI dI : IVec SE1 32) (wv : SEv.Idx → EReal) (e : Fin 850000) :
    mulf (F := Ideal) (φ := .f32)
      (mulf (F := Ideal) (φ := .f32) (Host.gather gather_S50000_S850000x1_S850000_n_0_n_n_0_1_1 dn sI) wv)
      (Host.gather gather_S50000_S850000x1_S850000_n_0_n_n_0_1_1 dn dI) (ix1 e)
    = dn (ix1 (rowOf sI e)) * wv (ix1 e) * dn (ix1 (rowOf dI e)) := by
  rw [gatherVec_rec, mulf_apply, mulf_apply, gatherVec_apply, gatherVec_apply]

/-- The first layer's edge normalisation. -/
theorem v31_apply (x1 : IVec SI2 32) (x2 : SIv.Idx → EReal) (e : Fin 850000) :
    val_main_v31 (F := Ideal) x1 x2 (ix1 e) = edgeNorm (rowOf (wrapCol (sv hostEv x1))) (rowOf (wrapCol (dv hostEv x1))) (fun e => w8 hostEv x2 (ix1 e)) (fun v => dinv hostEv x1 x2 (ix1 v)) e := by
  unfold val_main_v31 val_main_v23 val_main_v22 val_main_v30
  rw [v15_eq, v21_eq, v29_eq, v8_eq, norm_apply]
  rfl

/-- The second layer's, recomputed by the program, is the same. -/
theorem v77_apply (x1 : IVec SI2 32) (x2 : SIv.Idx → EReal) (e : Fin 850000) :
    val_main_v77 (F := Ideal) x1 x2 (ix1 e) = edgeNorm (rowOf (wrapCol (sv hostEv x1))) (rowOf (wrapCol (dv hostEv x1))) (fun e => w8 hostEv x2 (ix1 e)) (fun v => dinv hostEv x1 x2 (ix1 v)) e := by
  unfold val_main_v77 val_main_v69 val_main_v68 val_main_v76
  rw [v61_eq, v67_eq, v75_eq, v54_eq, norm_apply]
  rfl

/-- The dense product at `(u, j)`: row `u` against column `j`. -/
theorem dot_apply (a : SN.Idx → EReal) (W : SW.Idx → EReal) (u : Fin 50000) (j : Fin 128) :
    val_main_v32 (F := Ideal) a W (ix2 u j) = dense (fun u k => a (ix2 u k)) (fun k j => W (ix2 k j)) u j := by
  rw [val_main_v32_apply]
  refine Finset.sum_congr rfl fun k _ => ?_
  have el : lidx_main_v32 (ix2 u j) k = ix2 u k :=
    funext fun a => Fin.ext (by match a with | ⟨0, _⟩ => rfl | ⟨1, _⟩ => rfl)
  have er : ridx_main_v32 (ix2 u j) k = ix2 k j :=
    funext fun a => Fin.ext (by match a with | ⟨0, _⟩ => rfl | ⟨1, _⟩ => rfl)
  rw [el, er]

/-- The bias row read at `(v, j)` is the bias at `j`. -/
theorem bias_idx (v : Fin 50000) (j : Fin 128) : idx_main_v46 (idx_main_v47 (ix2 v j)) = ix1 j :=
  funext fun a => Fin.ext (by match a with | ⟨0, _⟩ => rfl)

/-- ONE LAYER at `(v, j)`, over any table `tbl` and any per-edge factor `nrm`: gather the table's rows, scale each by its
    edge's factor, scatter-add into zeros, add the bias, clip at zero. -/
theorem layer_apply (tbl : SN.Idx → EReal) (hh : Fin 50000 → Fin 128 → EReal) (htbl : ∀ u k, tbl (ix2 u k) = hh u k)
    (nrm : SEv.Idx → EReal) (nn : Fin 850000 → EReal) (hn : ∀ e, nrm (ix1 e) = nn e)
    (sI dI : IVec SE1 32) (b : SC.Idx → EReal) (v : Fin 50000) (j : Fin 128) :
    maximumf (F := Ideal) (φ := .f32)
      (addf (F := Ideal) (φ := .f32)
        (Host.scatterAdd (F := Ideal) (φ := .f32) scatter_S50000x128_S850000x1_S850000x128_1_0_0_1
          (val_main_v43 (F := Ideal)) dI
          (mulf (F := Ideal) (φ := .f32)
            (Host.gather gather_S50000x128_S850000x1_S850000x128_1_0_n_n_0_1_1128 tbl sI)
            (broadcastInDim S850000x128 ![0, 1] bcast_S850000x1_S850000x128_0_1
              (broadcastInDim S850000x1 ![0] bcast_S850000_S850000x1_0 nrm))))
        (val_main_v47 (F := Ideal) b))
      (val_main_call1_v0 (F := Ideal)) (ix2 v j)
    = max ((0 + ∑ e : Fin 850000, if hitRow dI e v then hh (rowOf sI e) j * nn e else 0) + b (ix1 j)) 0 := by
  rw [maximumf_apply, addf_apply, val_main_call1_v0_apply, val_main_call1_cst_apply, val_main_v47_apply, val_main_v46_apply,
    bias_idx, Ideal.ofBits_def, Ideal.ofBits_zero_f32]
  unfold val_main_v43 val_main_cst_8
  rw [scatterRows_rec, gatherRows_rec, stage_apply]
  simp only [htbl, hn]

/-! ## The two layers of the program, and the result -/

/-- The first layer at `(v, j)`. -/
theorem v49_apply (x0 : SN.Idx → EReal) (x1 : IVec SI2 32) (x2 : SIv.Idx → EReal) (x3 : SW.Idx → EReal) (x4 : SC.Idx → EReal) (v : Fin 50000) (j : Fin 128) :
    val_main_v49 (F := Ideal) x0 x1 x2 x3 x4 (ix2 v j) = (epiR (aggR (rowOf (wrapCol (sv hostEv x1))) (rowOf (wrapCol (dv hostEv x1))) (hitRow (rawCol (dv hostEv x1))) (fun e => w8 hostEv x2 (ix1 e)) (fun v => dinv hostEv x1 x2 (ix1 v)) (dense (fun u k => x0 (ix2 u k)) (fun k j => x3 (ix2 k j)))) (fun j => x4 (ix1 j))) v j := by
  unfold val_main_v49 val_main_v48 val_main_v45 val_main_v42 val_main_v39 val_main_v41 val_main_v40
  rw [v44_eq, v38_eq,
    layer_apply (val_main_v32 (F := Ideal) x0 x3) _ (dot_apply x0 x3) (val_main_v31 (F := Ideal) x1 x2) _ (v31_apply x1 x2)]
  rfl

/-- The second dense product at `(u, j)`: the first layer's rows against the second weights. -/
theorem v78_apply (x0 : SN.Idx → EReal) (x1 : IVec SI2 32) (x2 : SIv.Idx → EReal) (x3 : SW.Idx → EReal) (x4 : SC.Idx → EReal) (x5 : SW.Idx → EReal) (u : Fin 50000) (j : Fin 128) :
    val_main_v78 (F := Ideal) x0 x1 x2 x3 x4 x5 (ix2 u j) = dense (epiR (aggR (rowOf (wrapCol (sv hostEv x1))) (rowOf (wrapCol (dv hostEv x1))) (hitRow (rawCol (dv hostEv x1))) (fun e => w8 hostEv x2 (ix1 e)) (fun v => dinv hostEv x1 x2 (ix1 v)) (dense (fun u k => x0 (ix2 u k)) (fun k j => x3 (ix2 k j)))) (fun j => x4 (ix1 j))) (fun k j => x5 (ix2 k j)) u j := by
  rw [val_main_v78_apply]
  refine Finset.sum_congr rfl fun k _ => ?_
  have el : lidx_main_v78 (ix2 u j) k = ix2 u k :=
    funext fun a => Fin.ext (by match a with | ⟨0, _⟩ => rfl | ⟨1, _⟩ => rfl)
  have er : ridx_main_v78 (ix2 u j) k = ix2 k j :=
    funext fun a => Fin.ext (by match a with | ⟨0, _⟩ => rfl | ⟨1, _⟩ => rfl)
  rw [el, er, v49_apply]

/-- The second layer's zeros, bias row and clip are the first layer's terms. -/
theorem v89_eq : val_main_v89 (F := Ideal) = val_main_v43 (F := Ideal) := rfl
theorem v93_eq (x6 : SC.Idx → EReal) : val_main_v93 (F := Ideal) x6 = val_main_v47 (F := Ideal) x6 := rfl
theorem call3_eq : val_main_call3_v0 (F := Ideal) = val_main_call1_v0 (F := Ideal) := rfl

/-- The second layer at `(v, j)`: the whole edge-space form. -/
theorem v95_apply (x0 : SN.Idx → EReal) (x1 : IVec SI2 32) (x2 : SIv.Idx → EReal) (x3 : SW.Idx → EReal) (x4 : SC.Idx → EReal) (x5 : SW.Idx → EReal) (x6 : SC.Idx → EReal) (v : Fin 50000) (j : Fin 128) :
    val_main_v95 (F := Ideal) x0 x1 x2 x3 x4 x5 x6 (ix2 v j)
      = refOut (rowOf (wrapCol (sv hostEv x1))) (rowOf (wrapCol (dv hostEv x1))) (hitRow (rawCol (dv hostEv x1))) (fun e => w8 hostEv x2 (ix1 e)) (fun v => dinv hostEv x1 x2 (ix1 v)) (fun u k => x0 (ix2 u k)) (fun k j => x3 (ix2 k j)) (fun j => x4 (ix1 j)) (fun k j => x5 (ix2 k j)) (fun j => x6 (ix1 j)) v j := by
  unfold val_main_v95 val_main_v94 val_main_v91 val_main_v88 val_main_v85 val_main_v87 val_main_v86
  rw [v90_eq, v84_eq, v89_eq, v93_eq, call3_eq,
    layer_apply (val_main_v78 (F := Ideal) x0 x1 x2 x3 x4 x5) _ (v78_apply x0 x1 x2 x3 x4 x5) (val_main_v77 (F := Ideal) x1 x2) _
      (v77_apply x1 x2)]
  rfl

/-- The reference's last stage is the edge-space form of its seven arguments. -/
theorem v95_eq (x0 : SN.Idx → EReal) (x1 : IVec SI2 32) (x2 : SIv.Idx → EReal) (x3 : SW.Idx → EReal) (x4 : SC.Idx → EReal) (x5 : SW.Idx → EReal) (x6 : SC.Idx → EReal) :
    val_main_v95 (F := Ideal) x0 x1 x2 x3 x4 x5 x6 = refSpec hostEv x0 x1 x2 x3 x4 x5 x6 := by
  funext i
  obtain ⟨v, j, rfl⟩ : ∃ (v : Fin 50000) (j : Fin 128), i = ix2 v j := ⟨i 0, i 1, eq_ix2 i⟩
  rw [v95_apply]
  rfl

/-- The reference run's result term is the edge-space form of the arguments. -/
theorem result_eq (m : (ℓ : Loc nD τ sig) → Buf (Elt Ideal) ℓ) (c : Dev nD) :
    Cert.ReferenceIdeal.Value.res_main_v95 (F := Ideal) m c
      = Cert.Proof.Gcn.refSpec Cert.ReferenceIdeal.hostEv (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [val_main_v95_eq]
  exact v95_eq _ _ _ _ _ _ _

end Cert.ReferenceIdeal.RefValue

end
-- ==== Proof.lean ====
/-
  A two-layer graph convolution (50000 nodes, 800000 weighted edges and one self-loop per node, 128 channels): a kernel
  program of three tiled regions among host gathers and scatter-adds, against a plain host reference.

  Both compute, per layer, `out[v] = relu (∑ over edges e into v of h[src e] · dinv[src e] · w e · dinv[v] + b)` with
  `h` the dense product of the layer's input and weights and `dinv` the inverse square root of the weighted in-degree
  (zero where the degree is not positive). The kernel scales the rows of `h` by `dinv` before the edges read them and
  the aggregated rows by `dinv` after; the reference gives every edge the factor `dinv[src] · w · dinv[dst]`, reading
  `dinv` at the edge's target wrapped and clamped, which on an edge that lands in the table is the target itself. On the
  extended reals the two agree because `0 ≤ dinv < ⊤`: such a factor distributes over any sum, and products reassociate
  (Proof/GcnLaw.lean). No finiteness of the inputs is used.

  The three frames: the two kernel programs' are the generated frame certificates; the reference's is its generated run
  with the result dropped. `preserves` is `True` (the idealization rewrote nothing). `algebraic`: the idealized kernel's
  run with its result named (Proof/KRun.lean) and that result read back through the host stretches and the three regions
  (Proof/KValue.lean over Proof/KHost.lean, Proof/KRegion0–2.lean, Proof/GcnCompose.lean) is the node-space form; the
  reference's generated run, read index by index (Proof/RefValue.lean), is the edge-space form; Proof/GcnStage.lean joins them.
-/
import proofs.«124985_j584115552914_2_alg».proof.Defs
import proofs.«124985_j584115552914_2_alg».proof.Proof.Gen.Kernel
import proofs.«124985_j584115552914_2_alg».proof.Proof.Gen.Kernel.Frame
import proofs.«124985_j584115552914_2_alg».proof.Proof.Gen.KernelIdeal
import proofs.«124985_j584115552914_2_alg».proof.Proof.Gen.KernelIdeal.Frame
import proofs.«124985_j584115552914_2_alg».proof.Proof.Gen.ReferenceIdeal
import proofs.«124985_j584115552914_2_alg».proof.Proof.Gen.ReferenceIdeal.Run
import proofs.«124985_j584115552914_2_alg».proof.Proof.Gen.ReferenceIdeal.Read
import proofs.«124985_j584115552914_2_alg».proof.Proof.Gen.Pre_finite_inputs
import proofs.«124985_j584115552914_2_alg».proof.Proof.KRun
import proofs.«124985_j584115552914_2_alg».proof.Proof.KValue
import proofs.«124985_j584115552914_2_alg».proof.Proof.RefValue
import proofs.«124985_j584115552914_2_alg».proof.Proof.GcnStage
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the seven arguments both idealized programs end with the node-space form of those arguments
    in their result arrays: the kernel's by its run read back, the reference's edge-space form by the law. -/
theorem algebraic : Cert.algebraic_KernelIdeal_ReferenceIdeal := by
  intro m ρ m' ρ' _ hagree
  refine ⟨fun c => Cert.Proof.Gcn.kernelSpec Cert.KernelIdeal.hostEv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result_eq m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.RefValue.result_eq m' c, h0, h1, h2, h3, h4, h5, h6]
    exact (Cert.Proof.Gcn.kernelSpec_eq_refSpec Cert.KernelIdeal.hostEv _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
